-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_3)) (v3 : (c : Dev Cert.KernelIdeal.nD) → Buf (Elt Ideal) ((c.tc : Thread Cert.KernelIdeal.nD Cert.KernelIdeal.τ).loc Cert.KernelIdeal.main_v1)) (v4 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_3) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_v0_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x4096 : Shape := ⟨2, ![4096, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S512x4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  main_v23

def fn {F : FTy → Type} [FloatOps F] (main_arg0 : FVec F S512x4096 .f32) (main_arg1 : FVec F S4096x4096 .f32) (main_arg2 : FVec F S512x4096 .f32) (main_arg3 : FVec F S512x4096 .f32) (main_arg4 : FVec F S512x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_v13 main_v16
-- ==== Kernel.lean ====
abbrev S512x4096 : Shape := ⟨2, ![512, 4096]⟩
abbrev S4096x4096 : Shape := ⟨2, ![4096, 4096]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 10
  | .vmem => 22
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S4096x4096, .f32⟩
  | .hbm, ⟨9, _⟩ => ⟨S512x4096, .f32⟩
  | .local _ .vmem, ⟨0, _⟩ => ⟨S512x4096, .f32⟩
  | .local _ .vmem, ⟨1, _⟩ => ⟨S512x1024, .f32⟩
  | .local _ .vmem, ⟨2, _⟩ => ⟨S512x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S512x1024 : 0 < S512x1024.numel
  inb_S512x1024_S512x1024_0_0 : ∀ a, (![0, 0] : Fin 2 → Nat) a + S512x1024.size a ≤ S512x1024.size a
  natLt_1_32 : 1 < 32
  inb_S512x2048_S512x2048_0_0 : ∀ a, (![0, 0] : Fin 2 → Nat) a + S512x2048.size a ≤ S512x2048.size a
  h_S512x2048 : 0 < S512x2048.numel
  dot_S512x1024_S512x1024_S512x512_1_1_0_0_n_n_wf : DotDims.WF S512x1024 S512x1024 S512x512 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S512x1024.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x4096.size a
  hwx0_2 : ∀ i : grid0.Coords, EltTy.bits .f32 = 32 ∨ (Rect.block (s := S512x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x4096.size a
  hwx0_3 : ∀ i : grid0.Coords, EltTy.bits .f32 = 32 ∨ (Rect.block (s := S512x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x4096.size a
  hwx0_4 : ∀ i : grid0.Coords, EltTy.bits .f32 = 32 ∨ (Rect.block (s := S512x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x4096.size a
  hwx0_5 : ∀ i : grid0.Coords, EltTy.bits .f32 = 32 ∨ (Rect.block (s := S512x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x4096.size a
  hwx0_6 : ∀ i : grid0.Coords, EltTy.bits .f32 = 32 ∨ (Rect.block (s := S512x4096) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x4096.size a
  hwx0_7 : ∀ i : grid0.Coords, EltTy.bits .f32 = 32 ∨ (Rect.block (s := S4096x4096) S512x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x4096.size a
  hwx1_0 : ∀ i : grid1.Coords, EltTy.bits .f32 = 32 ∨ (Rect.block (s := S512x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x4096.size a
  hwx1_1 : ∀ i : grid1.Coords, EltTy.bits .f32 = 32 ∨ (Rect.block (s := S512x4096) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x4096.size a
  hwx1_2 : ∀ i : grid1.Coords, EltTy.bits .f32 = 32 ∨ (Rect.block (s := S512x4096) S512x2048.size (cc1_transform_2 i) (hinb1_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun _ => false | ⟨_ + 8, h⟩ => absurd h (Nat.not_lt.2 (Nat.le_add_left _ _))

abbrev win1_0 : Pipeline.Window sig grid1 :=
  Pipeline.Window.ofSpec (Memref.whole main_arg3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x4096 : Shape := ⟨2, ![512, 4096]⟩
abbrev S4096x4096 : Shape := ⟨2, ![4096, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S4096x4096, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S_, .f32⟩
  | .hbm, ⟨12, _⟩ => ⟨S512x4096, .f32⟩
  | .hbm, ⟨13, _⟩ => ⟨S512x4096, .i1⟩
  | .hbm, ⟨14, _⟩ => ⟨S512x4096, .f32⟩
  | .hbm, ⟨15, _⟩ => ⟨S_, .f32⟩
  | .hbm, ⟨16, _⟩ => ⟨S512x4096, .f32⟩
  | .hbm, ⟨17, _⟩ => ⟨S512x4096, .i1⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S_, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S512x4096 : S_.BroadcastsInDim S512x4096 (![] : Fin 0 → Fin S512x4096.rank)
  bcast_S_S4096x4096 : S_.BroadcastsInDim S4096x4096 (![] : Fin 0 → Fin S4096x4096.rank)
  dot_S512x4096_S4096x4096_S512x4096_1_0_0_1_n_n_wf : DotDims.WF S512x4096 S4096x4096 S512x4096 [1] [0] [0] [1] [] []
  dot_S512x4096_S512x4096_S4096x4096_0_0_1_1_n_n_wf : DotDims.WF S512x4096 S512x4096 S4096x4096 [0] [0] [1] [1] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x4096_S512x4096_S4096x4096_0_0_1_1_n_n : DotDims S512x4096 S512x4096 S4096x4096 where
  lhsContracting := [0]
  rhsContracting := [0]
  lhsNonContracting := [1]
  rhsNonContracting := [1]
  lhsBatch := []
  rhsBatch := []
  wf := dot_S512x4096_S512x4096_S4096x4096_0_0_1_1_n_n_wf

class Facts : Prop extends Facts₀ where

variable [Facts]
-- ==== Proof.KR0Runs.lean ====
/-
  The first pallas_call of the layer: what its per-point proofs share.

  The grid is 8 × 4: `j` (first coordinate) picks a tile of 512 output neurons, `k` (second) a slab of 1024
  input neurons. At `k = 0` the body clears its accumulator; at every point it adds the slab's partial product to
  the accumulator and writes the clamped weight tile; at `k = 3` it also turns the accumulated drive into the
  spikes, the next potential and the postsynaptic trace of the tile. So a point is in one of three cases, decided
  by `k`, and the three outputs written only at `k = 3` are idle (handed back untouched, not written back) elsewhere.
  Here: the blocks of the arrays as the region finds them, the input windows' buffers, the two branch conditions in
  closed form, the idle table, the staging memrefs by name, and the region's resting invariant with the
  accumulator spelt as a memref.
-/
import proofs.«127198_j59219009077774_2_alg».proof.Proof.Gen.Kernel.Launch
import proofs.«127198_j59219009077774_2_alg».proof.Proof.Gen.Kernel.Skeleton
import proofs.«127198_j59219009077774_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data over the arrays `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data over the arrays `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the block
    index has not moved), for any proof data over the arrays `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, from the grid coordinates -/

/-- The accumulator is cleared where `k = 0`: -/
abbrev cond0_0 (i : grid0.Coords) : Prop := (Scalar.cmpi .ne (Scalar.extui (Scalar.cmpi .eq (BitVec.ofNat 32 (i 1).val) 0#32)) 0#32) = 1#1
/-- the points ≡ 0 (mod 4), decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The tile is finished where `k = 3`: -/
abbrev cond0_1 (i : grid0.Coords) : Prop := k0_cond2 i = 1#1
/-- the points ≡ 3 (mod 4), decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_7 : ∀ t : Fin cfg0.N, cfg0.idle 7 (grid0.coords t) = false := by decide +kernel
/-- Output 4 is stored only where the tile is finished: idle, and not written back, elsewhere. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
/-- Output 5 is stored only where the tile is finished: idle, and not written back, elsewhere. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
/-- Output 6 is stored only where the tile is finished: idle, and not written back, elsewhere. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-! ## The memrefs by name -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
/-- The accumulator: a whole scoped buffer of the kernel's own, passed beside the windows. -/
abbrev scM0_0 : Memref sig .tc .vmem S512x512 .f32 := Memref.whole cc0_scratch0
/-- One staging buffer of each output window and the accumulator, as views: contents are stated through them. -/
abbrev VO0_4 : View sig .tc .vmem S512x512 .f32 := (Memref.whole cc0_stg4_0 : Memref sig .tc .vmem S512x512 .f32).view
abbrev VO0_5 : View sig .tc .vmem S512x512 .f32 := (Memref.whole cc0_stg5_0 : Memref sig .tc .vmem S512x512 .f32).view
abbrev VO0_6 : View sig .tc .vmem S512x512 .f32 := (Memref.whole cc0_stg6_0 : Memref sig .tc .vmem S512x512 .f32).view
abbrev VO0_7 : View sig .tc .vmem S512x1024 .f32 := (Memref.whole cc0_stg7_0 : Memref sig .tc .vmem S512x1024 .f32).view
abbrev VS0_0 : View sig .tc .vmem S512x512 .f32 := scM0_0.view

/-- The other pallas_call's staging buffers, which this region never touches: each whole at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant with the accumulator as a memref owned at some contents: what the body is handed
    before the first point of all, and what every later invariant forgets down to. -/
theorem PhiA0_eq (c : Dev nD) :
    (Pipeline.ΦA spec0 c : sProp 𝕄)
      = iprop(iprop((∃ d, owns (c : Thread nD τ) scM0_0 fullShare d) ∗ otherStaging (F := F) c) ∗ (∃ r, prngReg c r)) := by
  unfold Pipeline.ΦA otherStaging; rw [scopedRest0_eq]; simp only [scM0_0, owns_whole]; try rfl

end Cert.Kernel.Hand

end
-- ==== Proof.KR0RunA.lean ====
/-
  The first pallas_call's body run whole at a point of case A (the slab is the tile's first: the accumulator is cleared, then the slab's partial product is added): on whole staging memrefs,
  the inputs at their contents, it runs to the continuation with the inputs as they were and each buffer it
  stored into holding the pieces its stores wrote, which the run finds.
-/
import proofs.«127198_j59219009077774_2_alg».proof.Proof.KR0Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case A: the pieces left in the clamped-weight buffer and in the accumulator, with the body's triple. -/
noncomputable def kernelRun0_A (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) :
    Σ' (L7 : List (View.Piece (Elt F) S512x1024 .f32)), { LS0 : List (View.Piece (Elt F) S512x512 .f32) //
      ∀ (xi4 xi5 xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, fun xi4 xi5 xi6 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.KR0RunB.lean ====
/-
  The first pallas_call's body run whole at a point of case B (a middle slab: the partial product is added to what the slab before left): on whole staging memrefs,
  the inputs at their contents, it runs to the continuation with the inputs as they were and each buffer it
  stored into holding the pieces its stores wrote, which the run finds.
-/
import proofs.«127198_j59219009077774_2_alg».proof.Proof.KR0Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case B: the pieces left in the clamped-weight buffer and in the accumulator, with the body's triple. -/
noncomputable def kernelRun0_B (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) :
    Σ' (L7 : List (View.Piece (Elt F) S512x1024 .f32)), { LS0 : List (View.Piece (Elt F) S512x512 .f32) //
      ∀ (xi4 xi5 xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, fun xi4 xi5 xi6 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.KR0RunC.lean ====
/-
  The first pallas_call's body run whole at a point of case C (the tile's last slab: after the partial product is added, the spikes, the next potential and the postsynaptic trace of the tile are computed from the accumulated drive and stored): on whole staging memrefs,
  the inputs at their contents, it runs to the continuation with the inputs as they were and each buffer it
  stored into holding the pieces its stores wrote, which the run finds.
-/
import proofs.«127198_j59219009077774_2_alg».proof.Proof.KR0Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case C: the pieces left in the clamped-weight buffer, in the three tile outputs and in the accumulator, with the body's triple. -/
noncomputable def kernelRun0_C (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    Σ' (L4 : List (View.Piece (Elt F) S512x512 .f32)) (L5 : List (View.Piece (Elt F) S512x512 .f32)) (L6 : List (View.Piece (Elt F) S512x512 .f32)) (L7 : List (View.Piece (Elt F) S512x1024 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact HS0

end Cert.Kernel.Hand

end
-- ==== Proof.KR0Data.lean ====
/-
  The first pallas_call as proof data: what each case leaves in the buffers it stores into, the accumulation point by
  point (the accumulator a point leaves is what the next point adds to), the invariant that carries the accumulator
  from point to point, and the body obligation at every point.
-/
import proofs.«127198_j59219009077774_2_alg».proof.Proof.KR0RunA
import proofs.«127198_j59219009077774_2_alg».proof.Proof.KR0RunB
import proofs.«127198_j59219009077774_2_alg».proof.Proof.KR0RunC

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What stands for the contents of a tile output at a point that does not store it: nothing reads it, since there
    the window is neither written back nor read at the next point. -/
def idleOut : Vec F S512x512 .f32 := VO0_4.read (Elt F) (VO0_4.writes (Elt F) VO0_4.junk [])

/-- Case A: the pieces stored into output 7 cover its block, -/
theorem cover0_A_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) (y : S512x1024.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S512x1024.size (by sl_kernel_rfl) y
/-- and what they leave there. -/
def out0_A_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) : Vec F S512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3).1)

/-- Case A: the pieces stored into the accumulator cover it, -/
theorem scover0_A_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) (y : S512x512.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S512x512.size (by sl_kernel_rfl) y
/-- and what they leave there. -/
def sout0_A_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) : Vec F S512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

/-- Case B: the pieces stored into output 7 cover its block, -/
theorem cover0_B_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) (y : S512x1024.Idx) :
    ∃ pc ∈ (kernelRun0_B c i arg2 harg2 arg3 harg3 arg4 harg4 arg5 harg5 arg6 harg6 arg7 harg7 arg8 harg8 arg9 harg9 arg10 harg10 hc0 hc1 x0 x1 x2 x3 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0).1 S512x1024.size (by sl_kernel_rfl) y
/-- and what they leave there. -/
def out0_B_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) : Vec F S512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 xs0).1)

/-- Case B: the pieces stored into the accumulator cover it, -/
theorem scover0_B_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) (y : S512x512.Idx) :
    ∃ pc ∈ (kernelRun0_B c i arg2 harg2 arg3 harg3 arg4 harg4 arg5 harg5 arg6 harg6 arg7 harg7 arg8 harg8 arg9 harg9 arg10 harg10 hc0 hc1 x0 x1 x2 x3 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0).2.1 S512x512.size (by sl_kernel_rfl) y
/-- and what they leave there. -/
def sout0_B_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) : Vec F S512x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0).2.1)

/-- Case C: the pieces stored into output 4 cover its block, -/
theorem cover0_C_4 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).1 S512x512.size (by sl_kernel_rfl) y
/-- and what they leave there. -/
def out0_C_4 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0).1)

/-- Case C: the pieces stored into output 5 cover its block, -/
theorem cover0_C_5 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.1 S512x512.size (by sl_kernel_rfl) y
/-- and what they leave there. -/
def out0_C_5 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0).2.1)

/-- Case C: the pieces stored into output 6 cover its block, -/
theorem cover0_C_6 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.2.1 S512x512.size (by sl_kernel_rfl) y
/-- and what they leave there. -/
def out0_C_6 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 xs0).2.2.1)

/-- Case C: the pieces stored into output 7 cover its block, -/
theorem cover0_C_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.2.2.1 S512x1024.size (by sl_kernel_rfl) y
/-- and what they leave there. -/
def out0_C_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 xs0).2.2.2.1)

/-- Case C: the pieces stored into the accumulator cover it, -/
theorem scover0_C_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.2.2.2.1 S512x512.size (by sl_kernel_rfl) y
/-- and what they leave there. -/
def sout0_C_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0).2.2.2.2.1)

section Data
variable (V : (c : Dev nD) → (b : Ref sig .tc) → Buf (Elt F) ((c : Thread nD τ).loc b))

/-! ## The accumulation -/

/-- What the four outputs' staging buffers and the accumulator hold after the body at position `n` (the outputs in window
    order, then the accumulator): the case `n mod 4` selects, run at the point's memrefs and input blocks, the accumulator
    it adds to being what position `n - 1` left. -/
def outsAt0 (c : Dev nD) : (n : ℕ) → n < cfg0.N → Vec F S512x512 .f32 × Vec F S512x512 .f32 × Vec F S512x512 .f32 × Vec F S512x1024 .f32 × Vec F S512x512 .f32
  | 0, hn => (idleOut, idleOut, idleOut, out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (idleOut, idleOut, idleOut, out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2)
      else
        (idleOut, idleOut, idleOut, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2)

theorem outsAt0_A (c : Dev nD) (t : Fin cfg0.N) (h0 : t.val % 4 = 0) (h1 : ¬t.val % 4 = 3) :
    outsAt0 V c t.val t.isLt = (idleOut, idleOut, idleOut, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idleOut, idleOut, idleOut, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: before the first point the region's resting invariant (the accumulator at anything);
    afterwards the accumulator at what the point before left, the other call's staging buffers at anything, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ otherStaging (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.2) ∗ otherStaging (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ otherStaging (F := F) c) ∗ (∃ r, prngReg c r)) := by
  cases n with
  | zero => exact absurd rfl hz
  | succ n => rfl

/-! ## The proof data -/

/-- The arrays as the region finds them; after the body at point `t` each input's buffer at its block and the outputs' at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Data

end Cert.Kernel.Hand

end
-- ==== Proof.KR0Body.lean ====
/-
  The first pallas_call's body obligation: at every grid point the body, called on the current staging memrefs, takes the
  proof data's "before" to its "after" — by cases on the slab index.
-/
import proofs.«127198_j59219009077774_2_alg».proof.Proof.KR0Data

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data
variable (V : (c : Dev nD) → (b : Ref sig .tc) → Buf (Elt F) ((c : Thread nD τ).loc b))

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; `t mod 4` says which case the point is in; the invariant
    hands the body the accumulator at what the point before left (at anything before the first point of all) and takes
    it back at this point's contents; a tile output the case does not store is handed back as found; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 7 t = owns (c : Thread nD τ) (ms0_7 t) fullShare ((dat0 V c).after 7 t) from by
    unfold Dat.leavesExact; rw [liveAt0_7 t], after0_7]
  by_cases h0 : t.val % 4 = 0
  · by_cases h1 : t.val % 4 = 3
    · exfalso; omega
    · have hn1 : ¬cond0_1 (grid0.coords t) := fun h => h1 ((hcond0_1 t).mp h)
      rw [Dat.leavesExact_idle (dat0 V c) 4 t (idleAt0_4 t hn1) (noFlush0_4 t hn1), Dat.leavesExact_idle (dat0 V c) 5 t (idleAt0_5 t hn1) (noFlush0_5 t hn1), Dat.leavesExact_idle (dat0 V c) 6 t (idleAt0_6 t hn1) (noFlush0_6 t hn1)]
      rw [outsAt0_A V c t h0 h1]
      unfold out0_A_7 sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        unfold owns; iexists _; isplitr
        swap; · iexact H7
        ipureintro; exact View.read_writes_of_cover _ _ _ _ _ (cover0_A_7 _ _ _ _ _ _ _ _ _ _ _ _ _ _ _ _ _ _ _ _ _ _ _ _ _ _)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexists _; iexact HS0
        iintro ⟨H0, H1, H2, H3, H4, H5, H6, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        unfold owns; iexists _; isplitr
        swap; · iexact H7
        ipureintro; exact View.read_writes_of_cover _ _ _ _ _ (cover0_A_7 _ _ _ _ _ _ _ _ _ _ _ _ _ _ _ _ _ _ _ _ _ _ _ _ _ _)
  · have hz : t.val ≠ 0 := fun h => h0 (by rw [h])
    by_cases h1 : t.val % 4 = 3
    · have hy1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4_C t hy1], after0_4]
      rw [show (dat0 V c).leavesExact 5 t = owns (c : Thread nD τ) (ms0_5 t) fullShare ((dat0 V c).after 5 t) from by
        unfold Dat.leavesExact; rw [liveAt0_5_C t hy1], after0_5]
      rw [show (dat0 V c).leavesExact 6 t = owns (c : Thread nD τ) (ms0_6 t) fullShare ((dat0 V c).after 6 t) from by
        unfold Dat.leavesExact; rw [liveAt0_6_C t hy1], after0_6]
      rw [outsAt0_C V c t h0 h1]
      unfold out0_C_4 out0_C_5 out0_C_6 out0_C_7 sout0_C_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        iintro ⟨H0, H1, H2, H3, ⟨%e4, H4⟩, ⟨%e5, H5⟩, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 _ _ _ _ _ _ _ _ _ _ _ _ _ _ _ _ _ _ _ _ _ _ _ _ _ _ _)
        unfold owns; iexists _; isplitr
        swap; · iexact H7
        ipureintro; exact View.read_writes_of_cover _ _ _ _ _ (cover0_C_7 _ _ _ _ _ _ _ _ _ _ _ _ _ _ _ _ _ _ _ _ _ _ _ _ _ _ _)
    · have hn1 : ¬cond0_1 (grid0.coords t) := fun h => h1 ((hcond0_1 t).mp h)
      rw [Dat.leavesExact_idle (dat0 V c) 4 t (idleAt0_4 t hn1) (noFlush0_4 t hn1), Dat.leavesExact_idle (dat0 V c) 5 t (idleAt0_5 t hn1) (noFlush0_5 t hn1), Dat.leavesExact_idle (dat0 V c) 6 t (idleAt0_6 t hn1) (noFlush0_6 t hn1)]
      rw [outsAt0_B V c t h0 h1]
      unfold out0_B_7 sout0_B_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        unfold owns; iexists _; isplitr
        swap; · iexact H7
        ipureintro; exact View.read_writes_of_cover _ _ _ _ _ (cover0_B_7 _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the resting one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Data

end Cert.Kernel.Hand

end
-- ==== Proof.KReg1.lean ====
/-
  The pipeline that updates the presynaptic trace, at the contents V its arrays hold when it starts, for any
  float instance.

  It has two points; at each, the body reads the current block of the old trace (window 0) and the current
  block of the spikes (window 1), and overwrites the current block of the output (window 2) with
  old · δ + spikes, whatever that buffer held before.  Stated here: the block each window holds at a point,
  what the body leaves in the output's buffer as a function of the two input blocks, the body's triple, and the
  pipeline's proof data with its body obligation.
-/
import proofs.«127198_j59219009077774_2_alg».proof.Proof.Gen.Kernel.Launch
import proofs.«127198_j59219009077774_2_alg».proof.Proof.Gen.Kernel.Skeleton
import proofs.«127198_j59219009077774_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the pipeline starts
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body reads and writes: the whole block. -/
abbrev r1_0 : Rect S512x2048 := Rect.unit (s := S512x2048) ![0, 0] S512x2048.size inb_S512x2048_S512x2048_0_0

/-! ## What the body leaves in the output window's buffer -/

/-- Window 2's staging buffer after the body, from the input windows' blocks: its one store as a piece. -/
def out1_2 (x0 x1 : Vec F S512x2048 .f32) : Vec F S512x2048 .f32 :=
  View.canon [⟨r1_0, k1_pay1 (View.ld x0 r1_0) (View.ld x1 r1_0)⟩]

/-- The store tiles the buffer, so it covers it. -/
theorem cover1_2 (p0 : Vec F S512x2048 .f32) (y : S512x2048.Idx) :
    ∃ pc ∈ ([⟨r1_0, p0⟩] : List (View.Piece (Elt F) S512x2048 .f32)), y ∈ pc.1.set :=
  View.cover_of_tiled [⟨r1_0, p0⟩] S512x2048.size (by rfl) y

/-! ## The body's triple -/

set_option maxHeartbeats 1000000 in
/-- The kernel body on whole staging memrefs, the inputs' at read contents `x0`, `x1` and the output's at anything,
    runs to the continuation holding the inputs' as they were and the output's at `out1_2` of the inputs'. -/
theorem sound_kernel1 (c : Dev nD) (E : Set ℕ) (i : grid1.Coords)
    (arg1 : Memref sig .tc .vmem S512x2048 .f32) (harg1 : arg1.IsWhole)
    (arg2 : Memref sig .tc .vmem S512x2048 .f32) (harg2 : arg2.IsWhole)
    (arg3 : Memref sig .tc .vmem S512x2048 .f32) (harg3 : arg3.IsWhole)
    (x0 x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__kernel_tp i arg1 harg1 arg2 harg2 arg3 harg3) K := by
  simp only [cc1__kernel_tp_eq_skeleton]; unfold cc1__kernel_tp_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the
    invariant of a body that carries nothing between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The whole program: its two pallas_calls in order, from the launch to the return.

  The buffer contents at each boundary are a fold from the launch memory: after a region, its windows' arrays hold what
  the pipeline's write-backs leave (the inputs as entered, each output the blocks its points wrote), every other buffer
  what it held on entry. Over the thread state "every unscoped buffer at the boundary's contents" each region is a
  segment of the library's several-region run, and at the end EVERY unscoped buffer is read off the last valuation: the
  arguments walk back to the launch memory, the results are the regions' final arrays.
-/
import proofs.«127198_j59219009077774_2_alg».proof.Proof.KR0Body
import proofs.«127198_j59219009077774_2_alg».proof.Proof.KReg1

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m (c, b)
/-- read at the TensorCore's references: what the first pallas_call's proof data take. -/
abbrev V0r : (c : Dev nD) → (b : Ref sig .tc) → Buf (Elt F) ((c : Thread nD τ).loc b) := fun c b => W0 m c b
/-- After the first pallas_call: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the second pallas_call, likewise. -/
def W2 (c : Dev nD) : Valuation τ sig (Elt F) :=
  Pipeline.withArrays spec1 c (W1 m c) fun w => (dat1 (V1r m) c).arrAt w cfg1.N
theorem W2_arr (c : Dev nD) (w : Fin cfg1.W) :
    W2 m c (Proc.devRef .tc (Pipeline.arrRef spec1 w)) = (dat1 (V1r m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2r : (c : Dev nD) → (b : Ref sig .tc) → Buf (Elt F) ((c : Thread nD τ).loc b) := fun c b => W2 m c b
theorem hF1 (c : Dev nD) (w : Fin cfg1.W) : (dat1 (V1r m) c).arrAt w cfg1.N = V2r m c (Pipeline.arrRef spec1 w) :=
  (W2_arr m c w).symm
theorem hrest1 (c : Dev nD) : ∀ b, b ∉ Finset.univ.image (Pipeline.arrRef spec1) → V2r m c b = V1r m c b :=
  fun b hb => W2_of_ne m c b fun w e => hb (Finset.mem_image.mpr ⟨w, Finset.mem_univ _, e⟩)

/-! ### The arguments end as launched -/

/-- Argument 0 ends as launched: neither region writes it (a region reads it through an input window, or bypasses it). -/
theorem W2_main_arg0 (c : Dev nD) : W2 m c (Proc.devRef .tc main_arg0) = m ((c : Thread nD τ).loc main_arg0) :=
  ((W2_arr m c 1).trans (((dat1 (V1r m) c).arrAt_in 1 rfl _).trans (A_eq1 (V1r m) c 1))).trans ((W1_arr m c 0).trans (((dat0 (V0r m) c).arrAt_in 0 rfl _).trans (A_eq0 (V0r m) c 0)))

/-- Argument 1 ends as launched: neither region writes it (a region reads it through an input window, or bypasses it). -/
theorem W2_main_arg1 (c : Dev nD) : W2 m c (Proc.devRef .tc main_arg1) = m ((c : Thread nD τ).loc main_arg1) :=
  (W2_of_ne m c main_arg1 (by decide)).trans ((W1_arr m c 1).trans (((dat0 (V0r m) c).arrAt_in 1 rfl _).trans (A_eq0 (V0r m) c 1)))

/-- Argument 2 ends as launched: neither region writes it (a region reads it through an input window, or bypasses it). -/
theorem W2_main_arg2 (c : Dev nD) : W2 m c (Proc.devRef .tc main_arg2) = m ((c : Thread nD τ).loc main_arg2) :=
  (W2_of_ne m c main_arg2 (by decide)).trans ((W1_arr m c 2).trans (((dat0 (V0r m) c).arrAt_in 2 rfl _).trans (A_eq0 (V0r m) c 2)))

/-- Argument 3 ends as launched: neither region writes it (a region reads it through an input window, or bypasses it). -/
theorem W2_main_arg3 (c : Dev nD) : W2 m c (Proc.devRef .tc main_arg3) = m ((c : Thread nD τ).loc main_arg3) :=
  ((W2_arr m c 0).trans (((dat1 (V1r m) c).arrAt_in 0 rfl _).trans (A_eq1 (V1r m) c 0))).trans (W1_of_ne m c main_arg3 (by decide))

/-- Argument 4 ends as launched: neither region writes it (a region reads it through an input window, or bypasses it). -/
theorem W2_main_arg4 (c : Dev nD) : W2 m c (Proc.devRef .tc main_arg4) = m ((c : Thread nD τ).loc main_arg4) :=
  (W2_of_ne m c main_arg4 (by decide)).trans ((W1_arr m c 3).trans (((dat0 (V0r m) c).arrAt_in 3 rfl _).trans (A_eq0 (V0r m) c 3)))

/-- What the second pallas_call finds in the spikes and in the presynaptic trace is the launch memory: the first call
    reads the spikes through an input window and never touches the trace. -/
theorem V1r_main_arg0 (c : Dev nD) : V1r m c main_arg0 = m ((c : Thread nD τ).loc main_arg0) :=
  (W1_arr m c 0).trans (((dat0 (V0r m) c).arrAt_in 0 rfl _).trans (A_eq0 (V0r m) c 0))
theorem V1r_main_arg3 (c : Dev nD) : V1r m c main_arg3 = m ((c : Thread nD τ).loc main_arg3) :=
  W1_of_ne m c main_arg3 (by decide)

/-! ## The proof data family and the thread state -/

/-- No pipeline has a prefetched table. -/
abbrev adm : (p : Fin 2) → (pcfgs (F := F) p).Adm := fun p => (cfgs p).toPCfg_adm
/-- Each pipeline's proof data at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V1r m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

-- a library lemma stated over the pinned configuration unifies with the printed one only when unification may unfold
-- plain definitions in a metavariable's type
set_option backward.isDefEq.respectTransparency.types false in
/-- Pallas_call 0 over the thread state "every unscoped buffer at the boundary's contents, the generator register at some
    state, nothing owed": its arrays are split out of the unscoped buffers on entry and put back at what the pipeline
    leaves on exit; the generator register goes into the region's invariant and comes back; it has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hrest : (Pipeline.ΦA spec0 c : sProp 𝕄) ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (hout0 (V0r m) c).trans hrest
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 over the thread state "every unscoped buffer at the boundary's contents, the generator register at some
    state, nothing owed": its arrays are split out of the unscoped buffers on entry and put back at what the pipeline
    leaves on exit; the generator register goes into the region's invariant and comes back; it has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1r m c) (V2r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and in
    every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

/-- The results: each is the final array of the window that writes it. -/
theorem results : θ_run defs (onTc (τ := τ) (main (F := F))) ⟨m, fun _ => 0, ρ⟩ (fun r => ∀ c : Dev nD,
      r.2.mem ((c.tc : Thread nD τ).loc main_v0_0) = (dat0 (V0r m) c).arrAt 4 cfg0.N
      ∧ r.2.mem ((c.tc : Thread nD τ).loc main_v0_1) = (dat0 (V0r m) c).arrAt 5 cfg0.N
      ∧ r.2.mem ((c.tc : Thread nD τ).loc main_v0_3) = (dat0 (V0r m) c).arrAt 7 cfg0.N
      ∧ r.2.mem ((c.tc : Thread nD τ).loc main_v1) = (dat1 (V1r m) c).arrAt 2 cfg1.N
      ∧ r.2.mem ((c.tc : Thread nD τ).loc main_v0_2) = (dat0 (V0r m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0_0 (by decide))).trans ((W2_of_ne m c main_v0_0 (by decide)).trans (W1_arr m c 4)),
     (h c _ (mem_uc main_v0_1 (by decide))).trans ((W2_of_ne m c main_v0_1 (by decide)).trans (W1_arr m c 5)),
     (h c _ (mem_uc main_v0_3 (by decide))).trans ((W2_of_ne m c main_v0_3 (by decide)).trans (W1_arr m c 7)),
     (h c _ (mem_uc main_v1 (by decide))).trans (W2_arr m c 2),
     (h c _ (mem_uc main_v0_2 (by decide))).trans ((W2_of_ne m c main_v0_2 (by decide)).trans (W1_arr m c 6)),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

end Cert.Kernel.Hand

end
-- ==== Proof.KiR0Runs.lean ====
/-
  The first pallas_call of the layer: what its per-point proofs share.

  The grid is 8 × 4: `j` (first coordinate) picks a tile of 512 output neurons, `k` (second) a slab of 1024
  input neurons. At `k = 0` the body clears its accumulator; at every point it adds the slab's partial product to
  the accumulator and writes the clamped weight tile; at `k = 3` it also turns the accumulated drive into the
  spikes, the next potential and the postsynaptic trace of the tile. So a point is in one of three cases, decided
  by `k`, and the three outputs written only at `k = 3` are idle (handed back untouched, not written back) elsewhere.
  Here: the blocks of the arrays as the region finds them, the input windows' buffers, the two branch conditions in
  closed form, the idle table, the staging memrefs by name, and the region's resting invariant with the
  accumulator spelt as a memref.
-/
import proofs.«127198_j59219009077774_2_alg».proof.Proof.Gen.KernelIdeal.Launch
import proofs.«127198_j59219009077774_2_alg».proof.Proof.Gen.KernelIdeal.Skeleton
import proofs.«127198_j59219009077774_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data over the arrays `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data over the arrays `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the block
    index has not moved), for any proof data over the arrays `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, from the grid coordinates -/

/-- The accumulator is cleared where `k = 0`: -/
abbrev cond0_0 (i : grid0.Coords) : Prop := (Scalar.cmpi .ne (Scalar.extui (Scalar.cmpi .eq (BitVec.ofNat 32 (i 1).val) 0#32)) 0#32) = 1#1
/-- the points ≡ 0 (mod 4), decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The tile is finished where `k = 3`: -/
abbrev cond0_1 (i : grid0.Coords) : Prop := k0_cond2 i = 1#1
/-- the points ≡ 3 (mod 4), decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_7 : ∀ t : Fin cfg0.N, cfg0.idle 7 (grid0.coords t) = false := by decide +kernel
/-- Output 4 is stored only where the tile is finished: idle, and not written back, elsewhere. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
/-- Output 5 is stored only where the tile is finished: idle, and not written back, elsewhere. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
/-- Output 6 is stored only where the tile is finished: idle, and not written back, elsewhere. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-! ## The memrefs by name -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
/-- The accumulator: a whole scoped buffer of the kernel's own, passed beside the windows. -/
abbrev scM0_0 : Memref sig .tc .vmem S512x512 .f32 := Memref.whole cc0_scratch0
/-- One staging buffer of each output window and the accumulator, as views: contents are stated through them. -/
abbrev VO0_4 : View sig .tc .vmem S512x512 .f32 := (Memref.whole cc0_stg4_0 : Memref sig .tc .vmem S512x512 .f32).view
abbrev VO0_5 : View sig .tc .vmem S512x512 .f32 := (Memref.whole cc0_stg5_0 : Memref sig .tc .vmem S512x512 .f32).view
abbrev VO0_6 : View sig .tc .vmem S512x512 .f32 := (Memref.whole cc0_stg6_0 : Memref sig .tc .vmem S512x512 .f32).view
abbrev VO0_7 : View sig .tc .vmem S512x1024 .f32 := (Memref.whole cc0_stg7_0 : Memref sig .tc .vmem S512x1024 .f32).view
abbrev VS0_0 : View sig .tc .vmem S512x512 .f32 := scM0_0.view

/-- The other pallas_call's staging buffers, which this region never touches: each whole at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant with the accumulator as a memref owned at some contents: what the body is handed
    before the first point of all, and what every later invariant forgets down to. -/
theorem PhiA0_eq (c : Dev nD) :
    (Pipeline.ΦA spec0 c : sProp 𝕄)
      = iprop(iprop((∃ d, owns (c : Thread nD τ) scM0_0 fullShare d) ∗ otherStaging (F := F) c) ∗ (∃ r, prngReg c r)) := by
  unfold Pipeline.ΦA otherStaging; rw [scopedRest0_eq]; simp only [scM0_0, owns_whole]; try rfl

end Cert.KernelIdeal.Hand

end
-- ==== Proof.KiR0RunA.lean ====
/-
  The first pallas_call's body run whole at a point of case A (the slab is the tile's first: the accumulator is cleared, then the slab's partial product is added): on whole staging memrefs,
  the inputs at their contents, it runs to the continuation with the inputs as they were and each buffer it
  stored into holding the pieces its stores wrote, which the run finds.
-/
import proofs.«127198_j59219009077774_2_alg».proof.Proof.KiR0Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case A: the pieces left in the clamped-weight buffer and in the accumulator, with the body's triple. -/
noncomputable def kernelRun0_A (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) :
    Σ' (L7 : List (View.Piece (Elt F) S512x1024 .f32)), { LS0 : List (View.Piece (Elt F) S512x512 .f32) //
      ∀ (xi4 xi5 xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, fun xi4 xi5 xi6 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KiR0RunB.lean ====
/-
  The first pallas_call's body run whole at a point of case B (a middle slab: the partial product is added to what the slab before left): on whole staging memrefs,
  the inputs at their contents, it runs to the continuation with the inputs as they were and each buffer it
  stored into holding the pieces its stores wrote, which the run finds.
-/
import proofs.«127198_j59219009077774_2_alg».proof.Proof.KiR0Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case B: the pieces left in the clamped-weight buffer and in the accumulator, with the body's triple. -/
noncomputable def kernelRun0_B (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) :
    Σ' (L7 : List (View.Piece (Elt F) S512x1024 .f32)), { LS0 : List (View.Piece (Elt F) S512x512 .f32) //
      ∀ (xi4 xi5 xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, fun xi4 xi5 xi6 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KiR0RunC.lean ====
/-
  The first pallas_call's body run whole at a point of case C (the tile's last slab: after the partial product is added, the spikes, the next potential and the postsynaptic trace of the tile are computed from the accumulated drive and stored): on whole staging memrefs,
  the inputs at their contents, it runs to the continuation with the inputs as they were and each buffer it
  stored into holding the pieces its stores wrote, which the run finds.
-/
import proofs.«127198_j59219009077774_2_alg».proof.Proof.KiR0Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- Case C: the pieces left in the clamped-weight buffer, in the three tile outputs and in the accumulator, with the body's triple. -/
noncomputable def kernelRun0_C (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    Σ' (L4 : List (View.Piece (Elt F) S512x512 .f32)) (L5 : List (View.Piece (Elt F) S512x512 .f32)) (L6 : List (View.Piece (Elt F) S512x512 .f32)) (L7 : List (View.Piece (Elt F) S512x1024 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact HS0

end Cert.KernelIdeal.Hand

end
-- ==== Proof.KiR0Data.lean ====
/-
  The first pallas_call as proof data: what each case leaves in the buffers it stores into, the accumulation point by
  point (the accumulator a point leaves is what the next point adds to), the invariant that carries the accumulator
  from point to point, and the body obligation at every point.
-/
import proofs.«127198_j59219009077774_2_alg».proof.Proof.KiR0RunA
import proofs.«127198_j59219009077774_2_alg».proof.Proof.KiR0RunB
import proofs.«127198_j59219009077774_2_alg».proof.Proof.KiR0RunC

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What stands for the contents of a tile output at a point that does not store it: nothing reads it, since there
    the window is neither written back nor read at the next point. -/
def idleOut : Vec F S512x512 .f32 := VO0_4.read (Elt F) (VO0_4.writes (Elt F) VO0_4.junk [])

/-- Case A: the pieces stored into output 7 cover its block, -/
theorem cover0_A_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) (y : S512x1024.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S512x1024.size (by sl_kernel_rfl) y
/-- and what they leave there. -/
def out0_A_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) : Vec F S512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3).1)

/-- Case A: the pieces stored into the accumulator cover it, -/
theorem scover0_A_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) (y : S512x512.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S512x512.size (by sl_kernel_rfl) y
/-- and what they leave there. -/
def sout0_A_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) : Vec F S512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

/-- Case B: the pieces stored into output 7 cover its block, -/
theorem cover0_B_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) (y : S512x1024.Idx) :
    ∃ pc ∈ (kernelRun0_B c i arg2 harg2 arg3 harg3 arg4 harg4 arg5 harg5 arg6 harg6 arg7 harg7 arg8 harg8 arg9 harg9 arg10 harg10 hc0 hc1 x0 x1 x2 x3 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0).1 S512x1024.size (by sl_kernel_rfl) y
/-- and what they leave there. -/
def out0_B_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) : Vec F S512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 xs0).1)

/-- Case B: the pieces stored into the accumulator cover it, -/
theorem scover0_B_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) (y : S512x512.Idx) :
    ∃ pc ∈ (kernelRun0_B c i arg2 harg2 arg3 harg3 arg4 harg4 arg5 harg5 arg6 harg6 arg7 harg7 arg8 harg8 arg9 harg9 arg10 harg10 hc0 hc1 x0 x1 x2 x3 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0).2.1 S512x512.size (by sl_kernel_rfl) y
/-- and what they leave there. -/
def sout0_B_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) : Vec F S512x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0).2.1)

/-- Case C: the pieces stored into output 4 cover its block, -/
theorem cover0_C_4 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).1 S512x512.size (by sl_kernel_rfl) y
/-- and what they leave there. -/
def out0_C_4 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0).1)

/-- Case C: the pieces stored into output 5 cover its block, -/
theorem cover0_C_5 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.1 S512x512.size (by sl_kernel_rfl) y
/-- and what they leave there. -/
def out0_C_5 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0).2.1)

/-- Case C: the pieces stored into output 6 cover its block, -/
theorem cover0_C_6 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.2.1 S512x512.size (by sl_kernel_rfl) y
/-- and what they leave there. -/
def out0_C_6 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 xs0).2.2.1)

/-- Case C: the pieces stored into output 7 cover its block, -/
theorem cover0_C_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.2.2.1 S512x1024.size (by sl_kernel_rfl) y
/-- and what they leave there. -/
def out0_C_7 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 xs0).2.2.2.1)

/-- Case C: the pieces stored into the accumulator cover it, -/
theorem scover0_C_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0).2.2.2.2.1 S512x512.size (by sl_kernel_rfl) y
/-- and what they leave there. -/
def sout0_C_0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) : Vec F S512x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0).2.2.2.2.1)

section Data
variable (V : (c : Dev nD) → (b : Ref sig .tc) → Buf (Elt F) ((c : Thread nD τ).loc b))

/-! ## The accumulation -/

/-- What the four outputs' staging buffers and the accumulator hold after the body at position `n` (the outputs in window
    order, then the accumulator): the case `n mod 4` selects, run at the point's memrefs and input blocks, the accumulator
    it adds to being what position `n - 1` left. -/
def outsAt0 (c : Dev nD) : (n : ℕ) → n < cfg0.N → Vec F S512x512 .f32 × Vec F S512x512 .f32 × Vec F S512x512 .f32 × Vec F S512x1024 .f32 × Vec F S512x512 .f32
  | 0, hn => (idleOut, idleOut, idleOut, out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (idleOut, idleOut, idleOut, out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2)
      else
        (idleOut, idleOut, idleOut, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.2)

theorem outsAt0_A (c : Dev nD) (t : Fin cfg0.N) (h0 : t.val % 4 = 0) (h1 : ¬t.val % 4 = 3) :
    outsAt0 V c t.val t.isLt = (idleOut, idleOut, idleOut, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idleOut, idleOut, idleOut, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position `n`: before the first point the region's resting invariant (the accumulator at anything);
    afterwards the accumulator at what the point before left, the other call's staging buffers at anything, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ otherStaging (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.2) ∗ otherStaging (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ otherStaging (F := F) c) ∗ (∃ r, prngReg c r)) := by
  cases n with
  | zero => exact absurd rfl hz
  | succ n => rfl

/-! ## The proof data -/

/-- The arrays as the region finds them; after the body at point `t` each input's buffer at its block and the outputs' at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem after0_7 (c : Dev nD) (t : Fin cfg0.N) : (dat0 V c).after 7 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Data

end Cert.KernelIdeal.Hand

end
-- ==== Proof.KiR0Body.lean ====
/-
  The first pallas_call's body obligation: at every grid point the body, called on the current staging memrefs, takes the
  proof data's "before" to its "after" — by cases on the slab index.
-/
import proofs.«127198_j59219009077774_2_alg».proof.Proof.KiR0Data

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data
variable (V : (c : Dev nD) → (b : Ref sig .tc) → Buf (Elt F) ((c : Thread nD τ).loc b))

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; `t mod 4` says which case the point is in; the invariant
    hands the body the accumulator at what the point before left (at anything before the first point of all) and takes
    it back at this point's contents; a tile output the case does not store is handed back as found; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 7 t = owns (c : Thread nD τ) (ms0_7 t) fullShare ((dat0 V c).after 7 t) from by
    unfold Dat.leavesExact; rw [liveAt0_7 t], after0_7]
  by_cases h0 : t.val % 4 = 0
  · by_cases h1 : t.val % 4 = 3
    · exfalso; omega
    · have hn1 : ¬cond0_1 (grid0.coords t) := fun h => h1 ((hcond0_1 t).mp h)
      rw [Dat.leavesExact_idle (dat0 V c) 4 t (idleAt0_4 t hn1) (noFlush0_4 t hn1), Dat.leavesExact_idle (dat0 V c) 5 t (idleAt0_5 t hn1) (noFlush0_5 t hn1), Dat.leavesExact_idle (dat0 V c) 6 t (idleAt0_6 t hn1) (noFlush0_6 t hn1)]
      rw [outsAt0_A V c t h0 h1]
      unfold out0_A_7 sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        unfold owns; iexists _; isplitr
        swap; · iexact H7
        ipureintro; exact View.read_writes_of_cover _ _ _ _ _ (cover0_A_7 _ _ _ _ _ _ _ _ _ _ _ _ _ _ _ _ _ _ _ _ _ _ _ _ _ _)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexists _; iexact HS0
        iintro ⟨H0, H1, H2, H3, H4, H5, H6, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        unfold owns; iexists _; isplitr
        swap; · iexact H7
        ipureintro; exact View.read_writes_of_cover _ _ _ _ _ (cover0_A_7 _ _ _ _ _ _ _ _ _ _ _ _ _ _ _ _ _ _ _ _ _ _ _ _ _ _)
  · have hz : t.val ≠ 0 := fun h => h0 (by rw [h])
    by_cases h1 : t.val % 4 = 3
    · have hy1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4_C t hy1], after0_4]
      rw [show (dat0 V c).leavesExact 5 t = owns (c : Thread nD τ) (ms0_5 t) fullShare ((dat0 V c).after 5 t) from by
        unfold Dat.leavesExact; rw [liveAt0_5_C t hy1], after0_5]
      rw [show (dat0 V c).leavesExact 6 t = owns (c : Thread nD τ) (ms0_6 t) fullShare ((dat0 V c).after 6 t) from by
        unfold Dat.leavesExact; rw [liveAt0_6_C t hy1], after0_6]
      rw [outsAt0_C V c t h0 h1]
      unfold out0_C_4 out0_C_5 out0_C_6 out0_C_7 sout0_C_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        iintro ⟨H0, H1, H2, H3, ⟨%e4, H4⟩, ⟨%e5, H5⟩, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 _ _ _ _ _ _ _ _ _ _ _ _ _ _ _ _ _ _ _ _ _ _ _ _ _ _ _)
        unfold owns; iexists _; isplitr
        swap; · iexact H7
        ipureintro; exact View.read_writes_of_cover _ _ _ _ _ (cover0_C_7 _ _ _ _ _ _ _ _ _ _ _ _ _ _ _ _ _ _ _ _ _ _ _ _ _ _ _)
    · have hn1 : ¬cond0_1 (grid0.coords t) := fun h => h1 ((hcond0_1 t).mp h)
      rw [Dat.leavesExact_idle (dat0 V c) 4 t (idleAt0_4 t hn1) (noFlush0_4 t hn1), Dat.leavesExact_idle (dat0 V c) 5 t (idleAt0_5 t hn1) (noFlush0_5 t hn1), Dat.leavesExact_idle (dat0 V c) 6 t (idleAt0_6 t hn1) (noFlush0_6 t hn1)]
      rw [outsAt0_B V c t h0 h1]
      unfold out0_B_7 sout0_B_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        unfold owns; iexists _; isplitr
        swap; · iexact H7
        ipureintro; exact View.read_writes_of_cover _ _ _ _ _ (cover0_B_7 _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the resting one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Data

end Cert.KernelIdeal.Hand

end
-- ==== Proof.KiReg1.lean ====
/-
  The pipeline that updates the presynaptic trace, at the contents V its arrays hold when it starts, for any
  float instance.

  It has two points; at each, the body reads the current block of the old trace (window 0) and the current
  block of the spikes (window 1), and overwrites the current block of the output (window 2) with
  old · δ + spikes, whatever that buffer held before.  Stated here: the block each window holds at a point,
  what the body leaves in the output's buffer as a function of the two input blocks, the body's triple, and the
  pipeline's proof data with its body obligation.
-/
import proofs.«127198_j59219009077774_2_alg».proof.Proof.Gen.KernelIdeal.Launch
import proofs.«127198_j59219009077774_2_alg».proof.Proof.Gen.KernelIdeal.Skeleton
import proofs.«127198_j59219009077774_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the pipeline starts
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body reads and writes: the whole block. -/
abbrev r1_0 : Rect S512x2048 := Rect.unit (s := S512x2048) ![0, 0] S512x2048.size inb_S512x2048_S512x2048_0_0

/-! ## What the body leaves in the output window's buffer -/

/-- Window 2's staging buffer after the body, from the input windows' blocks: its one store as a piece. -/
def out1_2 (x0 x1 : Vec F S512x2048 .f32) : Vec F S512x2048 .f32 :=
  View.canon [⟨r1_0, k1_pay1 (View.ld x0 r1_0) (View.ld x1 r1_0)⟩]

/-- The store tiles the buffer, so it covers it. -/
theorem cover1_2 (p0 : Vec F S512x2048 .f32) (y : S512x2048.Idx) :
    ∃ pc ∈ ([⟨r1_0, p0⟩] : List (View.Piece (Elt F) S512x2048 .f32)), y ∈ pc.1.set :=
  View.cover_of_tiled [⟨r1_0, p0⟩] S512x2048.size (by rfl) y

/-! ## The body's triple -/

set_option maxHeartbeats 1000000 in
/-- The kernel body on whole staging memrefs, the inputs' at read contents `x0`, `x1` and the output's at anything,
    runs to the continuation holding the inputs' as they were and the output's at `out1_2` of the inputs'. -/
theorem sound_kernel1 (c : Dev nD) (E : Set ℕ) (i : grid1.Coords)
    (arg1 : Memref sig .tc .vmem S512x2048 .f32) (harg1 : arg1.IsWhole)
    (arg2 : Memref sig .tc .vmem S512x2048 .f32) (harg2 : arg2.IsWhole)
    (arg3 : Memref sig .tc .vmem S512x2048 .f32) (harg3 : arg3.IsWhole)
    (x0 x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__kernel_tp i arg1 harg1 arg2 harg2 arg3 harg3) K := by
  simp only [cc1__kernel_tp_eq_skeleton]; unfold cc1__kernel_tp_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the
    invariant of a body that carries nothing between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KiRun.lean ====
/-
  The whole program: its two pallas_calls in order, from the launch to the return.

  The buffer contents at each boundary are a fold from the launch memory: after a region, its windows' arrays hold what
  the pipeline's write-backs leave (the inputs as entered, each output the blocks its points wrote), every other buffer
  what it held on entry. Over the thread state "every unscoped buffer at the boundary's contents" each region is a
  segment of the library's several-region run, and at the end EVERY unscoped buffer is read off the last valuation: the
  arguments walk back to the launch memory, the results are the regions' final arrays.
-/
import proofs.«127198_j59219009077774_2_alg».proof.Proof.KiR0Body
import proofs.«127198_j59219009077774_2_alg».proof.Proof.KiReg1

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m (c, b)
/-- read at the TensorCore's references: what the first pallas_call's proof data take. -/
abbrev V0r : (c : Dev nD) → (b : Ref sig .tc) → Buf (Elt F) ((c : Thread nD τ).loc b) := fun c b => W0 m c b
/-- After the first pallas_call: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the second pallas_call, likewise. -/
def W2 (c : Dev nD) : Valuation τ sig (Elt F) :=
  Pipeline.withArrays spec1 c (W1 m c) fun w => (dat1 (V1r m) c).arrAt w cfg1.N
theorem W2_arr (c : Dev nD) (w : Fin cfg1.W) :
    W2 m c (Proc.devRef .tc (Pipeline.arrRef spec1 w)) = (dat1 (V1r m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2r : (c : Dev nD) → (b : Ref sig .tc) → Buf (Elt F) ((c : Thread nD τ).loc b) := fun c b => W2 m c b
theorem hF1 (c : Dev nD) (w : Fin cfg1.W) : (dat1 (V1r m) c).arrAt w cfg1.N = V2r m c (Pipeline.arrRef spec1 w) :=
  (W2_arr m c w).symm
theorem hrest1 (c : Dev nD) : ∀ b, b ∉ Finset.univ.image (Pipeline.arrRef spec1) → V2r m c b = V1r m c b :=
  fun b hb => W2_of_ne m c b fun w e => hb (Finset.mem_image.mpr ⟨w, Finset.mem_univ _, e⟩)

/-! ### The arguments end as launched -/

/-- Argument 0 ends as launched: neither region writes it (a region reads it through an input window, or bypasses it). -/
theorem W2_main_arg0 (c : Dev nD) : W2 m c (Proc.devRef .tc main_arg0) = m ((c : Thread nD τ).loc main_arg0) :=
  ((W2_arr m c 1).trans (((dat1 (V1r m) c).arrAt_in 1 rfl _).trans (A_eq1 (V1r m) c 1))).trans ((W1_arr m c 0).trans (((dat0 (V0r m) c).arrAt_in 0 rfl _).trans (A_eq0 (V0r m) c 0)))

/-- Argument 1 ends as launched: neither region writes it (a region reads it through an input window, or bypasses it). -/
theorem W2_main_arg1 (c : Dev nD) : W2 m c (Proc.devRef .tc main_arg1) = m ((c : Thread nD τ).loc main_arg1) :=
  (W2_of_ne m c main_arg1 (by decide)).trans ((W1_arr m c 1).trans (((dat0 (V0r m) c).arrAt_in 1 rfl _).trans (A_eq0 (V0r m) c 1)))

/-- Argument 2 ends as launched: neither region writes it (a region reads it through an input window, or bypasses it). -/
theorem W2_main_arg2 (c : Dev nD) : W2 m c (Proc.devRef .tc main_arg2) = m ((c : Thread nD τ).loc main_arg2) :=
  (W2_of_ne m c main_arg2 (by decide)).trans ((W1_arr m c 2).trans (((dat0 (V0r m) c).arrAt_in 2 rfl _).trans (A_eq0 (V0r m) c 2)))

/-- Argument 3 ends as launched: neither region writes it (a region reads it through an input window, or bypasses it). -/
theorem W2_main_arg3 (c : Dev nD) : W2 m c (Proc.devRef .tc main_arg3) = m ((c : Thread nD τ).loc main_arg3) :=
  ((W2_arr m c 0).trans (((dat1 (V1r m) c).arrAt_in 0 rfl _).trans (A_eq1 (V1r m) c 0))).trans (W1_of_ne m c main_arg3 (by decide))

/-- Argument 4 ends as launched: neither region writes it (a region reads it through an input window, or bypasses it). -/
theorem W2_main_arg4 (c : Dev nD) : W2 m c (Proc.devRef .tc main_arg4) = m ((c : Thread nD τ).loc main_arg4) :=
  (W2_of_ne m c main_arg4 (by decide)).trans ((W1_arr m c 3).trans (((dat0 (V0r m) c).arrAt_in 3 rfl _).trans (A_eq0 (V0r m) c 3)))

/-- What the second pallas_call finds in the spikes and in the presynaptic trace is the launch memory: the first call
    reads the spikes through an input window and never touches the trace. -/
theorem V1r_main_arg0 (c : Dev nD) : V1r m c main_arg0 = m ((c : Thread nD τ).loc main_arg0) :=
  (W1_arr m c 0).trans (((dat0 (V0r m) c).arrAt_in 0 rfl _).trans (A_eq0 (V0r m) c 0))
theorem V1r_main_arg3 (c : Dev nD) : V1r m c main_arg3 = m ((c : Thread nD τ).loc main_arg3) :=
  W1_of_ne m c main_arg3 (by decide)

/-! ## The proof data family and the thread state -/

/-- No pipeline has a prefetched table. -/
abbrev adm : (p : Fin 2) → (pcfgs (F := F) p).Adm := fun p => (cfgs p).toPCfg_adm
/-- Each pipeline's proof data at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V1r m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

-- a library lemma stated over the pinned configuration unifies with the printed one only when unification may unfold
-- plain definitions in a metavariable's type
set_option backward.isDefEq.respectTransparency.types false in
/-- Pallas_call 0 over the thread state "every unscoped buffer at the boundary's contents, the generator register at some
    state, nothing owed": its arrays are split out of the unscoped buffers on entry and put back at what the pipeline
    leaves on exit; the generator register goes into the region's invariant and comes back; it has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hrest : (Pipeline.ΦA spec0 c : sProp 𝕄) ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (hout0 (V0r m) c).trans hrest
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 over the thread state "every unscoped buffer at the boundary's contents, the generator register at some
    state, nothing owed": its arrays are split out of the unscoped buffers on entry and put back at what the pipeline
    leaves on exit; the generator register goes into the region's invariant and comes back; it has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1r m c) (V2r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and in
    every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

/-- The results: each is the final array of the window that writes it. -/
theorem results : θ_run defs (onTc (τ := τ) (main (F := F))) ⟨m, fun _ => 0, ρ⟩ (fun r => ∀ c : Dev nD,
      r.2.mem ((c.tc : Thread nD τ).loc main_v0_0) = (dat0 (V0r m) c).arrAt 4 cfg0.N
      ∧ r.2.mem ((c.tc : Thread nD τ).loc main_v0_1) = (dat0 (V0r m) c).arrAt 5 cfg0.N
      ∧ r.2.mem ((c.tc : Thread nD τ).loc main_v0_3) = (dat0 (V0r m) c).arrAt 7 cfg0.N
      ∧ r.2.mem ((c.tc : Thread nD τ).loc main_v1) = (dat1 (V1r m) c).arrAt 2 cfg1.N
      ∧ r.2.mem ((c.tc : Thread nD τ).loc main_v0_2) = (dat0 (V0r m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0_0 (by decide))).trans ((W2_of_ne m c main_v0_0 (by decide)).trans (W1_arr m c 4)),
     (h c _ (mem_uc main_v0_1 (by decide))).trans ((W2_of_ne m c main_v0_1 (by decide)).trans (W1_arr m c 5)),
     (h c _ (mem_uc main_v0_3 (by decide))).trans ((W2_of_ne m c main_v0_3 (by decide)).trans (W1_arr m c 7)),
     (h c _ (mem_uc main_v1 (by decide))).trans (W2_arr m c 2),
     (h c _ (mem_uc main_v0_2 (by decide))).trans ((W2_of_ne m c main_v0_2 (by decide)).trans (W1_arr m c 6)),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

end Cert.KernelIdeal.Hand

end
-- ==== Proof.Spec.lean ====
/-
  The specification: what one step of the spiking layer computes, index by index, on the extended reals.

  Inputs: the presynaptic spikes `s` and the two traces and the membrane potential, each of shape [512, 4096]
  (batch × neurons), and the weights `w` of shape [4096, 4096] (output neuron × input neuron).

    drive b o  = Σ_i s[b,i] · w[o,i]                       (the weighted input)
    pot   b o  = v[b,o] · β + drive b o                      (the leaky integration)
    fired b o  = 1 if pot b o > 1, else 0                    (the threshold, as a number)
    next  b o  = pot b o − r   if fired b o > 0, else pot b o (the reset)
    post  b o  = q[b,o] · δ + fired b o                      (postsynaptic trace)
    pre   b i  = p[b,i] · δ + s[b,i]                         (presynaptic trace)
    clipped o i = min(hi, max(lo, w[o,i]))                   (the weights, clamped)

  The constants β, r, δ, lo, hi are kept as the binary32 words both programs spell, never evaluated.
  The potentiation and depression rates of the plasticity rule are equal, so the weight change is
  0 · (post ᵀ pre) = 0 on the extended reals and the new weights are the old ones clamped.
-/
import Idealize.ShloMosaic.PureOps.Ideal
import Idealize.ShloMosaic.Lib.ValueIdx

noncomputable section

namespace Cert.Spec

open Idealize.ShloMosaic Idealize.ShloMosaic.ValueIdx

/-- A batch × neurons array and the weight matrix, as functions of an index. -/
abbrev Act : Type := (⟨2, ![512, 4096]⟩ : Shape).Idx → EReal
abbrev Wts : Type := (⟨2, ![4096, 4096]⟩ : Shape).Idx → EReal

/-- The extended real a binary32 word denotes. -/
abbrev lit (b : BitVec 32) : EReal := Ideal.ofBits .f32 b

/-- The leak β, the threshold 1, the reset r, the trace decay δ and the clamp bounds, as spelt by both programs. -/
abbrev beta : EReal := lit 0x3F7D70A4#32
abbrev thr : EReal := lit 0x3F800000#32
abbrev rst : EReal := lit 0x3F4CCCCD#32
abbrev decay : EReal := lit 0x3F666666#32
abbrev lo : EReal := lit 0xBDCCCCCD#32
abbrev hi : EReal := lit 0x3DCCCCCD#32
abbrev zero : EReal := lit 0x00000000#32

/-- The weighted input of neuron `o` in batch row `b`. -/
def drive (s : Act) (w : Wts) (b : Fin 512) (o : Fin 4096) : EReal :=
  ∑ i : Fin 4096, s (ix2 b i) * w (ix2 o i)

/-- The potential after leak and input. -/
def pot (s : Act) (w : Wts) (v : Act) (b : Fin 512) (o : Fin 4096) : EReal :=
  v (ix2 b o) * beta + drive s w b o

/-- A potential above the threshold fires: the comparison's bit read as a number, 0 or 1. -/
def fire (x : EReal) : EReal := (((Ideal.cmp .ogt x thr).toNat : ℝ) : EReal)

/-- A neuron that fired is reset by `r`; one that did not keeps its potential. -/
def reset (x : EReal) : EReal := Scalar.select (Ideal.cmp .ogt (fire x) zero) (x - rst) x

def fired (s : Act) (w : Wts) (v : Act) : Act := fun j => fire (pot s w v (j 0) (j 1))
def next (s : Act) (w : Wts) (v : Act) : Act := fun j => reset (pot s w v (j 0) (j 1))
def post (s : Act) (w : Wts) (v q : Act) : Act := fun j => q j * decay + fire (pot s w v (j 0) (j 1))
def pre (s p : Act) : Act := fun j => p j * decay + s j
def clipped (w : Wts) : Wts := fun j => min hi (max lo (w j))

end Cert.Spec

end
-- ==== Proof.KiReg1Value.lean ====
/-
  The presynaptic-trace pipeline on the extended reals, from blocks to the array.

  Each of its two points writes back the block  old · δ + spikes  of the columns 2048·t … 2048·t + 2047;
  the three windows move together (block (0, t) at point t), so what point t writes back is block t of the
  array  p · δ + s  of the specification, and the two blocks cover the 4096 columns: the output array ends
  holding  pre s p.
-/
import proofs.«127198_j59219009077774_2_alg».proof.Proof.KiReg1
import proofs.«127198_j59219009077774_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one rectangle starts at the origin. -/
theorem tp_hz : (![0, 0] : Fin 2 → Nat) = fun _ => 0 := funext fun a => by fin_cases a <;> rfl

/-- The body's payload at an index: the old trace times the decay, plus the spike. -/
theorem tp_pay_apply (v0 v3 : Vec Ideal S512x2048 .f32) (j : S512x2048.Idx) :
    k1_pay1 (F := Ideal) v0 v3 j = v0 j * Cert.Spec.decay + v3 j := by
  unfold k1_pay1
  simp only [addf_apply, mulf_apply, broadcast_apply]
  rfl

/-- The three index maps, decided over the two points: the input windows move with the output, whose block at
    point `t` is block (0, t). -/
theorem tp_idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = 0
    ∧ win1_2.index t (1 : Fin 2) = t.val :=
  (by decide +kernel : ∀ t : Fin grid1.N, _)

/-- What point `t` writes back is block `t` of the specification's array. -/
theorem tp_flushed_eq (c : Dev nD) (t : Fin cfg1.N) :
    (dat1 (F := Ideal) V c).flushed 2 t
      = ((cfg1.win 2).blk t).view.read (Elt Ideal) (Cert.Spec.pre (V c main_arg0) (V c main_arg3)) := by
  show (cfg1.win 2).cut (grid1.coords t) ((dat1 V c).after 2 t) = _
  rw [after1_2]
  unfold out1_2
  rw [View.canon_unit_zero tp_hz]
  simp only [View.ld_unit_zero (S := S512x2048) tp_hz]
  obtain ⟨e0, e1, e2, e3, e4, e5⟩ := tp_idx_facts t
  funext j
  refine (tp_pay_apply _ _ _).trans ?_
  let p : S512x4096.Idx → EReal := V c main_arg3
  let s : S512x4096.Idx → EReal := V c main_arg0
  show p (((cfg1.win 0).blk t).view.emb j) * Cert.Spec.decay + s (((cfg1.win 1).blk t).view.emb j)
    = p (((cfg1.win 2).blk t).view.emb j) * Cert.Spec.decay + s (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 2048 + 1 * (j 1).val = win1_2.index t (1 : Fin 2) * 2048 + 1 * (j 1).val; omega
  have h1 : ((cfg1.win 1).blk t).view.emb j = ((cfg1.win 2).blk t).view.emb j := by
    funext a; apply Fin.ext
    match a with
    | ⟨0, _⟩ => show win1_1.index t (0 : Fin 2) * 512 + 1 * (j 0).val = win1_2.index t (0 : Fin 2) * 512 + 1 * (j 0).val; omega
    | ⟨1, _⟩ => show win1_1.index t (1 : Fin 2) * 2048 + 1 * (j 1).val = win1_2.index t (1 : Fin 2) * 2048 + 1 * (j 1).val; omega
  rw [h0, h1]

/-- An index of the array is in point `t`'s block iff each coordinate is in the block's range on its axis. -/
theorem tp_mem_blk (t : Fin cfg1.N) (i : S512x4096.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v1).slice (win1_2.rect t)).set ↔ _
  rw [View.set_slice_whole, Rect.mem_set_unit]
  exact Iff.rfl

/-- Every index of the array is in some point's block: column `q` is in the block of point `q / 2048`. -/
theorem tp_cover (i : S512x4096.Idx) :
    ∃ t : Fin cfg1.N, (cfg1.win 2).flush t = true ∧ i ∈ ((cfg1.win 2).blk t).view.set := by
  have hi0 : (i 0).val < 512 := (i 0).isLt
  have hi1 : (i 1).val < 4096 := (i 1).isLt
  have hN : cfg1.N = 2 := N_1
  let t : Fin cfg1.N := ⟨(i 1).val / 2048, by rw [hN]; omega⟩
  obtain ⟨-, -, -, -, e4, e5⟩ := tp_idx_facts t
  have e5' : win1_2.index t (1 : Fin 2) = (i 1).val / 2048 := e5
  refine ⟨t, flush1_2 t, ?_⟩
  rw [tp_mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- The output array after the last point: the specification's presynaptic trace of the spikes and the old trace
    the pipeline started from. -/
theorem tp_final (c : Dev nD) :
    (dat1 (F := Ideal) V c).arrAt 2 cfg1.N = Cert.Spec.pre (V c main_arg0) (V c main_arg3) :=
  (dat1 (F := Ideal) V c).arrAt_eq_of_cover 2 (Cert.Spec.pre (V c main_arg0) (V c main_arg3))
    (fun t _ => tp_flushed_eq V c t) tp_cover

end Cert.KernelIdeal.Hand

end
-- ==== Proof.KiR0Pieces.lean ====
/-
  The first pallas_call, case by case: what each case's stores leave in the buffers they write, in terms of the
  body's pure values. A middle slab leaves the accumulator at the block product added to what it held, the first
  slab at the block product added to zero; every slab leaves the clamped weight tile; the last slab also leaves
  the spikes, the next potential and the postsynaptic trace of the tile, each a function of the potential block
  and the finished accumulator. The slab of the spikes a point multiplies by is read off the whole spike array
  at the point's column offset.
-/
import proofs.«127198_j59219009077774_2_alg».proof.Proof.KiR0Data
import Idealize.ShloMosaic.Lib.Pipeline.Value
import Idealize.ShloMosaic.Lib.ValueIdx

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz0 : (![0, 0] : Fin 2 → Nat) = fun _ => 0 := funext fun a => by fin_cases a <;> rfl

/-- The slab of the spike array a point multiplies by: the array read at the point's column offset. -/
def slab (i : grid0.Coords) (x0 : Vec F S512x4096 .f32) : Vec F S512x1024 .f32 :=
  View.ld x0 (Rect.unit (s := S512x4096) (k0_off1 i) S512x1024.size (k0_off1_inb i))

/-- A slab's column lies inside the spike array. -/
theorem slab_lt (i : grid0.Coords) (q : Fin 1024) : 1024 * (i 1).val + q.val < 4096 := by
  have h4 : (i 1).val < 4 := (i 1).isLt
  have hq := q.isLt
  omega

/-- The slab at an index: the spike array at the same row and at the slab's offset plus the column. -/
theorem slab_apply (i : grid0.Coords) (x0 : Vec F S512x4096 .f32) (b : Fin 512) (q : Fin 1024) :
    slab i x0 (ValueIdx.ix2 b q) = x0 (ValueIdx.ix2 b ⟨1024 * (i 1).val + q.val, slab_lt i q⟩) := by
  show x0 _ = x0 _
  congr 1
  funext a
  apply Fin.ext
  match a with
  | ⟨0, _⟩ =>
    show k0_off1 i 0 + 1 * b.val = b.val
    rw [k0_off1_eq]
    show 0 + 1 * b.val = b.val
    omega
  | ⟨1, _⟩ =>
    show k0_off1 i 1 + 1 * q.val = 1024 * (i 1).val + q.val
    rw [k0_off1_eq]
    show 1024 * (i 1).val + 1 * q.val = 1024 * (i 1).val + q.val
    omega

/-- The first slab clears the accumulator and leaves it at the block product added to zero. -/
theorem sout0_A_0_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) :
    sout0_A_0 c i arg2 harg2 arg3 harg3 arg4 harg4 arg5 harg5 arg6 harg6 arg7 harg7 arg8 harg8 arg9 harg9 arg10 harg10 hc0 hc1 x0 x1 x2 x3 = k0_pay2 (slab i x0) x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x512) hz0, View.readCov_unit_zero (S := S512x512) _ hz0]
  simp only [View.readAt_eq_ld, harg2.read_unread, harg3.read_unread, View.ld_unit_zero (S := S512x1024) hz0]
  try rfl

/-- The first slab leaves the clamped weight tile. -/
theorem out0_A_7_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : cond0_0 i) (hc1 : ¬cond0_1 i)
    (x0 : Vec F S512x4096 .f32) (x1 : Vec F S512x1024 .f32) (x2 x3 : Vec F S512x512 .f32) :
    out0_A_7 c i arg2 harg2 arg3 harg3 arg4 harg4 arg5 harg5 arg6 harg6 arg7 harg7 arg8 harg8 arg9 harg9 arg10 harg10 hc0 hc1 x0 x1 x2 x3 = k0_pay3 x1 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3)]
  unfold kernelRun0_A
  dsimp only
  rw [View.canon_unit_zero hz0]
  simp only [View.readAt_eq_ld, harg3.read_unread, View.ld_unit_zero (S := S512x1024) hz0]

/-- A middle slab leaves the accumulator at the block product added to what it held. -/
theorem sout0_B_0_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) :
    sout0_B_0 c i arg2 harg2 arg3 harg3 arg4 harg4 arg5 harg5 arg6 harg6 arg7 harg7 arg8 harg8 arg9 harg9 arg10 harg10 hc0 hc1 x0 x1 x2 x3 xs0 = k0_pay2 (slab i x0) x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0)]
  unfold kernelRun0_B
  dsimp only
  rw [View.canon_unit_zero hz0]
  simp only [View.readAt_eq_ld, harg2.read_unread, harg3.read_unread, harg10.read_unread,
    View.ld_unit_zero (S := S512x1024) hz0, View.ld_unit_zero (S := S512x512) hz0]
  rfl

/-- A middle slab leaves the clamped weight tile. -/
theorem out0_B_7_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : ¬cond0_1 i)
    (x0 : Vec F S512x4096 .f32) (x1 : Vec F S512x1024 .f32) (x2 x3 : Vec F S512x512 .f32) (xs0 : Vec F S512x512 .f32) :
    out0_B_7 c i arg2 harg2 arg3 harg3 arg4 harg4 arg5 harg5 arg6 harg6 arg7 harg7 arg8 harg8 arg9 harg9 arg10 harg10 hc0 hc1 x0 x1 x2 x3 xs0 = k0_pay3 x1 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 xs0)]
  unfold kernelRun0_B
  dsimp only
  rw [View.canon_unit_zero hz0]
  simp only [View.readAt_eq_ld, harg3.read_unread, View.ld_unit_zero (S := S512x1024) hz0]

/-- The last slab leaves the accumulator at the block product added to what it held. -/
theorem sout0_C_0_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    sout0_C_0 c i arg2 harg2 arg3 harg3 arg4 harg4 arg5 harg5 arg6 harg6 arg7 harg7 arg8 harg8 arg9 harg9 arg10 harg10 hc0 hc1 x0 x1 x2 x3 xs0 = k0_pay2 (slab i x0) x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0)]
  unfold kernelRun0_C
  dsimp only
  sl_unfold_words
  rw [View.canon_unit_zero hz0]
  simp only [View.readAt_eq_ld, harg2.read_unread, harg3.read_unread, harg10.read_unread, View.ld_unit_zero (S := S512x1024) hz0, View.ld_unit_zero (S := S512x512) hz0]
  try rfl

/-- The last slab leaves the clamped weight tile. -/
theorem out0_C_7_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    out0_C_7 c i arg2 harg2 arg3 harg3 arg4 harg4 arg5 harg5 arg6 harg6 arg7 harg7 arg8 harg8 arg9 harg9 arg10 harg10 hc0 hc1 x0 x1 x2 x3 xs0 = k0_pay3 x1 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 xs0)]
  unfold kernelRun0_C
  dsimp only
  rw [View.canon_unit_zero hz0]
  simp only [View.readAt_eq_ld, harg3.read_unread, View.ld_unit_zero (S := S512x1024) hz0]

/-- The last slab leaves the spikes: the threshold applied to the potential block and the finished accumulator. -/
theorem out0_C_4_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    out0_C_4 c i arg2 harg2 arg3 harg3 arg4 harg4 arg5 harg5 arg6 harg6 arg7 harg7 arg8 harg8 arg9 harg9 arg10 harg10 hc0 hc1 x0 x1 x2 x3 xs0 = k0_pay5 x2 (k0_pay2 (slab i x0) x1 xs0) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0)]
  unfold kernelRun0_C
  dsimp only
  sl_unfold_words
  rw [View.canon_unit_zero hz0, View.readCov_unit_zero (S := S512x512) _ hz0]
  simp only [View.readAt_eq_ld, harg2.read_unread, harg3.read_unread, harg4.read_unread, harg10.read_unread, View.ld_unit_zero (S := S512x1024) hz0, View.ld_unit_zero (S := S512x512) hz0]
  try rfl

/-- The last slab leaves the next potential: the reset applied to the potential block and the finished accumulator. -/
theorem out0_C_5_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    out0_C_5 c i arg2 harg2 arg3 harg3 arg4 harg4 arg5 harg5 arg6 harg6 arg7 harg7 arg8 harg8 arg9 harg9 arg10 harg10 hc0 hc1 x0 x1 x2 x3 xs0 = k0_pay6 x2 (k0_pay2 (slab i x0) x1 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0)]
  unfold kernelRun0_C
  dsimp only
  sl_unfold_words
  rw [View.canon_unit_zero hz0, View.readCov_unit_zero (S := S512x512) _ hz0]
  simp only [View.readAt_eq_ld, harg2.read_unread, harg3.read_unread, harg4.read_unread, harg10.read_unread, View.ld_unit_zero (S := S512x1024) hz0, View.ld_unit_zero (S := S512x512) hz0]
  try rfl

/-- The last slab leaves the postsynaptic trace: the decayed trace block plus the spikes. -/
theorem out0_C_6_eq (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x512 .f32) (harg10 : arg10.IsWhole) (hc0 : ¬cond0_0 i) (hc1 : cond0_1 i)
    (x0 : Vec F S512x4096 .f32) (x1 : Vec F S512x1024 .f32) (x2 x3 : Vec F S512x512 .f32) (xs0 : Vec F S512x512 .f32) :
    out0_C_6 c i arg2 harg2 arg3 harg3 arg4 harg4 arg5 harg5 arg6 harg6 arg7 harg7 arg8 harg8 arg9 harg9 arg10 harg10 hc0 hc1 x0 x1 x2 x3 xs0 = k0_pay7 x2 (k0_pay2 (slab i x0) x1 xs0) x3 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 xs0)]
  unfold kernelRun0_C
  dsimp only
  sl_unfold_words
  rw [View.canon_unit_zero hz0, View.readCov_unit_zero (S := S512x512) _ hz0]
  simp only [View.readAt_eq_ld, harg2.read_unread, harg3.read_unread, harg4.read_unread, harg5.read_unread, harg10.read_unread, View.ld_unit_zero (S := S512x1024) hz0, View.ld_unit_zero (S := S512x512) hz0]
  try rfl

end Cert.KernelIdeal.Hand

end
-- ==== Proof.Pay.lean ====
/-
  The kernel's arithmetic read at one index, on the extended reals.

  Each value the kernel's body stores is a pure function of the blocks it has read; here each of these
  functions is evaluated at a single index (b, o) and shown to be the corresponding scalar expression of the
  specification: the clamp, the leaky integration, the threshold bit read as a number, the reset, the
  two trace updates, and the block product accumulated into the running sum. The last law splits a sum
  over 4096 terms into the four consecutive blocks of 1024 in which the kernel accumulates it.
-/
import proofs.«127198_j59219009077774_2_alg».proof.Proof.Gen.KernelIdeal.Skeleton
import proofs.«127198_j59219009077774_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Idealize.SL.Sem

open scoped BigOperators

/-- The cleared accumulator at an index: zero. -/
theorem pay1_apply (b o : Fin 512) : k0_pay1 (F := Ideal) (ix2 b o) = 0 := by
  show shapeCast S512x512 (broadcast S512x512 (Scalar.ofBits (F := Ideal) .f32 0x00000000#32))
      shapeCasts_S512x512_S512x512 (ix2 b o) = 0
  rw [shapeCast_self]
  exact Ideal.ofBits_zero_f32

/-- The left operand is read at the output's row … -/
theorem lhs_row (i : S512x512.Idx) (k : dot_S512x1024_S512x1024_S512x512_1_1_0_0_n_n.contr.Idx) : (dot_S512x1024_S512x1024_S512x512_1_1_0_0_n_n.lhsIdx i k 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl

/-- … and at the contraction position; -/
theorem lhs_col (i : S512x512.Idx) (k : dot_S512x1024_S512x1024_S512x512_1_1_0_0_n_n.contr.Idx) : (dot_S512x1024_S512x1024_S512x512_1_1_0_0_n_n.lhsIdx i k 1).val = (k ⟨0, by decide⟩).val :=
  dot_S512x1024_S512x1024_S512x512_1_1_0_0_n_n.lhsIdx_val_of_single rfl i k

/-- the right operand is read at the output's column, as its row, … -/
theorem rhs_row (i : S512x512.Idx) (k : dot_S512x1024_S512x1024_S512x512_1_1_0_0_n_n.contr.Idx) : (dot_S512x1024_S512x1024_S512x512_1_1_0_0_n_n.rhsIdx i k 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

/-- … and at the contraction position. -/
theorem rhs_col (i : S512x512.Idx) (k : dot_S512x1024_S512x1024_S512x512_1_1_0_0_n_n.contr.Idx) : (dot_S512x1024_S512x1024_S512x512_1_1_0_0_n_n.rhsIdx i k 1).val = (k ⟨0, by decide⟩).val :=
  dot_S512x1024_S512x1024_S512x512_1_1_0_0_n_n.rhsIdx_val_of_single rfl i k

/-- The accumulation at an index: the running sum plus the block's share of the weighted input. -/
theorem pay2_apply (v6 v7 : Vec Ideal S512x1024 .f32) (v8 : Vec Ideal S512x512 .f32) (b o : Fin 512) :
    k0_pay2 (F := Ideal) v6 v7 v8 (ix2 b o) = v8 (ix2 b o) + ∑ q : Fin 1024, v6 (ix2 b q) * v7 (ix2 o q) := by
  show shapeCast S512x512 (addf v8 (matmul dot_S512x1024_S512x1024_S512x512_1_1_0_0_n_n (some .fp32) v6 v7 (constant (F := Ideal) S512x512 .f32 0x00000000#32)))
      shapeCasts_S512x512_S512x512 (ix2 b o) = _
  rw [shapeCast_self]
  show v8 (ix2 b o) + FloatOps.matmul dot_S512x1024_S512x1024_S512x512_1_1_0_0_n_n (some .fp32) v6 v7 (constant (F := Ideal) S512x512 .f32 0x00000000#32) (ix2 b o) = _
  rw [Ideal.matmul_constant_zero_apply, ← Equiv.sum_comp (contrEquiv1 dot_S512x1024_S512x1024_S512x512_1_1_0_0_n_n 1024 rfl rfl).symm]
  refine congrArg (v8 (ix2 b o) + ·) (Finset.sum_congr rfl fun k _ => ?_)
  have hk := contrEquiv1_symm_val dot_S512x1024_S512x1024_S512x512_1_1_0_0_n_n 1024 rfl rfl k
  have el : dot_S512x1024_S512x1024_S512x512_1_1_0_0_n_n.lhsIdx (ix2 b o) ((contrEquiv1 dot_S512x1024_S512x1024_S512x512_1_1_0_0_n_n 1024 rfl rfl).symm k) = ix2 b k := funext fun a => Fin.ext (by
    match a with
    | ⟨0, _⟩ => exact lhs_row _ _
    | ⟨1, _⟩ => exact (lhs_col _ _).trans hk)
  have er : dot_S512x1024_S512x1024_S512x512_1_1_0_0_n_n.rhsIdx (ix2 b o) ((contrEquiv1 dot_S512x1024_S512x1024_S512x512_1_1_0_0_n_n 1024 rfl rfl).symm k) = ix2 o k := funext fun a => Fin.ext (by
    match a with
    | ⟨0, _⟩ => exact rhs_row _ _
    | ⟨1, _⟩ => exact (rhs_col _ _).trans hk)
  rw [el, er]

/-- The clamp at an index: the minimum of the upper bound and the maximum of the lower bound and the entry. -/
theorem pay3_apply (v7 : Vec Ideal S512x1024 .f32) (r : Fin 512) (q : Fin 1024) :
    k0_pay3 (F := Ideal) v7 (ix2 r q) = min Cert.Spec.hi (max Cert.Spec.lo (v7 (ix2 r q))) := rfl

/-- The leaky integration at an index: the potential times the leak plus the accumulated input. -/
theorem pay4_apply (v22 v25 : Vec Ideal S512x512 .f32) (b o : Fin 512) :
    k0_pay4 (F := Ideal) v22 v25 (ix2 b o) = v22 (ix2 b o) * Cert.Spec.beta + v25 (ix2 b o) := rfl

/-- The presynaptic trace at an index: the trace times the decay plus the spike. -/
theorem tp_apply (v0 v3 : Vec Ideal S512x2048 .f32) (b : Fin 512) (q2 : Fin 2048) :
    k1_pay1 (F := Ideal) v0 v3 (ix2 b q2) = v0 (ix2 b q2) * Cert.Spec.decay + v3 (ix2 b q2) := rfl

/-- A one-bit word widened to 32 bits and read as a signed integer is the bit read as a natural number. -/
theorem bit_toInt_real (c : BitVec 1) : (((c.setWidth 32).toInt : ℝ)) = ((c.toNat : ℝ)) := by
  rcases BitVec.eq_zero_or_eq_one c with rfl | rfl
  · have h : (BitVec.setWidth 32 0#1).toInt = 0 := by decide
    rw [h]; simp
  · have h : (BitVec.setWidth 32 1#1).toInt = 1 := by decide
    rw [h]; simp

/-- The threshold at an index: the comparison's bit, widened and converted, is the bit read as a number. -/
theorem pay5_apply (v22 v25 : Vec Ideal S512x512 .f32) (b o : Fin 512) :
    k0_pay5 (F := Ideal) v22 v25 (ix2 b o) = Cert.Spec.fire (k0_pay4 (F := Ideal) v22 v25 (ix2 b o)) := by
  show ((((Ideal.cmp .ogt (k0_pay4 (F := Ideal) v22 v25 (ix2 b o)) Cert.Spec.thr).setWidth 32).toInt : ℝ) : EReal) = _
  rw [bit_toInt_real]
  rfl

/-- The reset at an index: where the neuron fired the potential less the reset, elsewhere the potential. -/
theorem pay6_apply (v22 v25 : Vec Ideal S512x512 .f32) (b o : Fin 512) :
    k0_pay6 (F := Ideal) v22 v25 (ix2 b o) = Cert.Spec.reset (k0_pay4 (F := Ideal) v22 v25 (ix2 b o)) := by
  show Scalar.select (Ideal.cmp .ogt (k0_pay5 (F := Ideal) v22 v25 (ix2 b o)) Cert.Spec.zero)
      (k0_pay4 (F := Ideal) v22 v25 (ix2 b o) - Cert.Spec.rst) (k0_pay4 (F := Ideal) v22 v25 (ix2 b o)) = _
  rw [pay5_apply]
  rfl

/-- The postsynaptic trace at an index: the trace times the decay plus the threshold's number. -/
theorem pay7_apply (v22 v25 v36 : Vec Ideal S512x512 .f32) (b o : Fin 512) :
    k0_pay7 (F := Ideal) v22 v25 v36 (ix2 b o)
      = v36 (ix2 b o) * Cert.Spec.decay + Cert.Spec.fire (k0_pay4 (F := Ideal) v22 v25 (ix2 b o)) := by
  show v36 (ix2 b o) * Cert.Spec.decay + k0_pay5 (F := Ideal) v22 v25 (ix2 b o) = _
  rw [pay5_apply]

/-- A sum of 4096 terms is the sum, accumulated from zero, of its four consecutive blocks of 1024 terms. -/
theorem sum_blocks (f : Fin 4096 → EReal) :
    ∑ i : Fin 4096, f i
      = (((0 + ∑ q : Fin 1024, f ⟨q.val, by omega⟩) + ∑ q : Fin 1024, f ⟨1024 + q.val, by omega⟩)
          + ∑ q : Fin 1024, f ⟨2048 + q.val, by omega⟩) + ∑ q : Fin 1024, f ⟨3072 + q.val, by omega⟩ := by
  have h4 : ∑ i : Fin 4096, f i
      = ∑ i : Fin 3072, f (Fin.castAdd 1024 i) + ∑ i : Fin 1024, f (Fin.natAdd 3072 i) :=
    Fin.sum_univ_add (a := 3072) (b := 1024) f
  have h3 : ∑ i : Fin 3072, f (Fin.castAdd 1024 i)
      = ∑ i : Fin 2048, f (Fin.castAdd 1024 (Fin.castAdd 1024 i))
        + ∑ i : Fin 1024, f (Fin.castAdd 1024 (Fin.natAdd 2048 i)) :=
    Fin.sum_univ_add (a := 2048) (b := 1024) (fun i => f (Fin.castAdd 1024 i))
  have h2 : ∑ i : Fin 2048, f (Fin.castAdd 1024 (Fin.castAdd 1024 i))
      = ∑ i : Fin 1024, f (Fin.castAdd 1024 (Fin.castAdd 1024 (Fin.castAdd 1024 i)))
        + ∑ i : Fin 1024, f (Fin.castAdd 1024 (Fin.castAdd 1024 (Fin.natAdd 1024 i))) :=
    Fin.sum_univ_add (a := 1024) (b := 1024) (fun i => f (Fin.castAdd 1024 (Fin.castAdd 1024 i)))
  rw [h4, h3, h2, zero_add]
  rfl

end Cert.KernelIdeal.Pay

end
-- ==== Proof.KiR0Value.lean ====
/-
  The first pipeline on the extended reals, from the point-by-point accumulation to the arrays.

  The grid is 8 × 4: point t = 4·j + k works on the tile of output neurons 512·j … 512·j + 511 and on the
  slab of input neurons 1024·k … 1024·k + 1023.

  The weights: every point writes back tile (j, k) of the clamped weights, and the 32 tiles cover the
  4096 × 4096 array, so the fourth output ends holding  clipped w.

  The drive: the accumulator after point 4·j + k holds, at (b, o), the sum  0 + Σ_{slabs ≤ k} Σ_q s[b, ·] · w[512·j + o, ·]
  accumulated slab by slab (by induction on the point: the point before left the sum through slab k − 1); after
  slab 3 this is the whole sum over the 4096 input neurons, the weighted input of the specification. At k = 3 the
  point writes back the threshold bit, the reset potential and the postsynaptic trace computed from it: column
  block j of  fired, next, post;  the eight blocks cover the 4096 columns.
-/
import proofs.«127198_j59219009077774_2_alg».proof.Proof.KiR0Data
import proofs.«127198_j59219009077774_2_alg».proof.Proof.KiR0Pieces
import proofs.«127198_j59219009077774_2_alg».proof.Proof.Pay
import proofs.«127198_j59219009077774_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

open scoped BigOperators

/-! ## The clamped weights -/

/-- The clamp at an index of the weight tile. -/
theorem clamp_at (v7 : Vec Ideal S512x1024 .f32) (j : S512x1024.Idx) :
    k0_pay3 (F := Ideal) v7 j = min Cert.Spec.hi (max Cert.Spec.lo (v7 j)) := rfl

/-- The weight tile read and the weight tile written move together: at point `t` both are tile
    `(t / 4, t % 4)` of the 8 × 4 tiling of the weights by 512 × 1024 tiles. -/
theorem w_idx_facts : ∀ t : Fin cfg0.N, win0_1.index t (0 : Fin 2) = win0_7.index t (0 : Fin 2)
    ∧ win0_1.index t (1 : Fin 2) = win0_7.index t (1 : Fin 2)
    ∧ win0_7.index t (0 : Fin 2) = t.val / 4
    ∧ win0_7.index t (1 : Fin 2) = t.val % 4 :=
  (by decide +kernel : ∀ t : Fin grid0.N, _)

/-- At every point, whatever its case, the body leaves the clamped weight tile in the fourth output's buffer. -/
theorem clip_after (c : Dev nD) (t : Fin cfg0.N) :
    (outsAt0 V c t.val t.isLt).2.2.2.1 = k0_pay3 (iblk0 V c 1 t) := by
  by_cases h0 : t.val % 4 = 0
  · have h1 : ¬t.val % 4 = 3 := by omega
    rw [outsAt0_A V c t h0 h1]
    dsimp only
    rw [out0_A_7_eq]
  · by_cases h1 : t.val % 4 = 3
    · rw [outsAt0_C V c t h0 h1]
      dsimp only
      rw [out0_C_7_eq]
    · rw [outsAt0_B V c t h0 h1]
      dsimp only
      rw [out0_B_7_eq]

/-- What point `t` writes back of the weights is tile `t` of the clamped weights. -/
theorem clip_flushed_eq (c : Dev nD) (t : Fin cfg0.N) :
    (dat0 (F := Ideal) V c).flushed 7 t
      = ((cfg0.win 7).blk t).view.read (Elt Ideal) (Cert.Spec.clipped (V c main_arg1)) := by
  show (cfg0.win 7).cut (grid0.coords t) ((dat0 V c).after 7 t) = _
  rw [after0_7, clip_after]
  obtain ⟨e0, e1, -, -⟩ := w_idx_facts t
  funext j
  refine (clamp_at _ _).trans ?_
  let w : S4096x4096.Idx → EReal := V c main_arg1
  show min Cert.Spec.hi (max Cert.Spec.lo (w (((cfg0.win 1).blk t).view.emb j)))
    = min Cert.Spec.hi (max Cert.Spec.lo (w (((cfg0.win 7).blk t).view.emb j)))
  have h1 : ((cfg0.win 1).blk t).view.emb j = ((cfg0.win 7).blk t).view.emb j := by
    funext a; apply Fin.ext
    match a with
    | ⟨0, _⟩ => show win0_1.index t (0 : Fin 2) * 512 + 1 * (j 0).val = win0_7.index t (0 : Fin 2) * 512 + 1 * (j 0).val; omega
    | ⟨1, _⟩ => show win0_1.index t (1 : Fin 2) * 1024 + 1 * (j 1).val = win0_7.index t (1 : Fin 2) * 1024 + 1 * (j 1).val; omega
  rw [h1]

/-- An index of the weights is in point `t`'s tile iff each coordinate is in the tile's range on its axis. -/
theorem clip_mem_blk (t : Fin cfg0.N) (i : S4096x4096.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_3).slice (win0_7.rect t)).set ↔ _
  rw [View.set_slice_whole, Rect.mem_set_unit]
  exact Iff.rfl

/-- Every index of the weights is in some point's tile: entry `(o, i)` is in the tile of point `4·(o / 512) + i / 1024`. -/
theorem clip_cover (i : S4096x4096.Idx) :
    ∃ t : Fin cfg0.N, (cfg0.win 7).flush t = true ∧ i ∈ ((cfg0.win 7).blk t).view.set := by
  have hi0 : (i 0).val < 4096 := (i 0).isLt
  have hi1 : (i 1).val < 4096 := (i 1).isLt
  have hN : cfg0.N = 32 := N_0
  let t : Fin cfg0.N := ⟨4 * ((i 0).val / 512) + (i 1).val / 1024, by rw [hN]; omega⟩
  obtain ⟨-, -, e2, e3⟩ := w_idx_facts t
  have e2' : win0_7.index t (0 : Fin 2) = (4 * ((i 0).val / 512) + (i 1).val / 1024) / 4 := e2
  have e3' : win0_7.index t (1 : Fin 2) = (4 * ((i 0).val / 512) + (i 1).val / 1024) % 4 := e3
  refine ⟨t, flush0_7 t, ?_⟩
  rw [clip_mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The fourth output after the last point: the weights the pipeline started from, clamped. -/
theorem clipped_final (c : Dev nD) :
    (dat0 (F := Ideal) V c).arrAt 7 cfg0.N = Cert.Spec.clipped (V c main_arg1) :=
  (dat0 (F := Ideal) V c).arrAt_eq_of_cover 7 (Cert.Spec.clipped (V c main_arg1))
    (fun t _ => clip_flushed_eq V c t) clip_cover

/-! ## The accumulated drive -/

/-- The spikes of batch row `b` as a function of a natural coordinate (zero outside the array). -/
def sN (s : Cert.Spec.Act) (b : Fin 512) (x : ℕ) : EReal := if h : x < 4096 then s (ix2 b ⟨x, h⟩) else 0
/-- The weights as a function of two natural coordinates (zero outside the array). -/
def wN (w : Cert.Spec.Wts) (o x : ℕ) : EReal := if h : o < 4096 ∧ x < 4096 then w (ix2 ⟨o, h.1⟩ ⟨x, h.2⟩) else 0
/-- One term of the weighted input of neuron `o` in batch row `b`. -/
def term (s : Cert.Spec.Act) (w : Cert.Spec.Wts) (b : Fin 512) (o x : ℕ) : EReal := sN s b x * wN w o x
/-- The share of slab `k` (input neurons 1024·k … 1024·k + 1023) in a sum over the input neurons. -/
def slabSum (f : ℕ → EReal) (k : ℕ) : EReal := ∑ q : Fin 1024, f (1024 * k + q.val)
/-- The sum accumulated slab by slab, from zero, through slab `k`. -/
def psum (f : ℕ → EReal) : ℕ → EReal
  | 0 => 0 + slabSum f 0
  | k + 1 => psum f k + slabSum f (k + 1)

/-- Through the last slab the accumulated sum is the sum over all 4096 input neurons. -/
theorem psum_three (f : ℕ → EReal) : psum f 3 = ∑ i : Fin 4096, f i.val := by
  rw [Pay.sum_blocks (fun i => f i.val)]
  show (((0 + slabSum f 0) + slabSum f 1) + slabSum f 2) + slabSum f 3 = _
  unfold slabSum
  simp only [Nat.mul_zero, Nat.zero_add, Nat.mul_one, Nat.reduceMul]

/-- The weighted input of the specification is the sum accumulated through the last slab. -/
theorem drive_eq_psum (s : Cert.Spec.Act) (w : Cert.Spec.Wts) (b : Fin 512) (o : Fin 4096) :
    Cert.Spec.drive s w b o = psum (term s w b o.val) 3 := by
  rw [psum_three]
  unfold Cert.Spec.drive
  refine Finset.sum_congr rfl fun i _ => ?_
  unfold term sN wN
  rw [dif_pos i.isLt, dif_pos ⟨o.isLt, i.isLt⟩]

/-- Where each point works, decided over the 32 points: the slab, and each window's block. -/
theorem pt_facts : ∀ t : Fin cfg0.N,
    (grid0.coords t (1 : Fin 2)).val = t.val % 4
    ∧ win0_0.index t (0 : Fin 2) = 0 ∧ win0_0.index t (1 : Fin 2) = 0
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The spikes' block at any point is the whole array. -/
theorem spikes_at (c : Dev nD) (t : Fin cfg0.N) (b : Fin 512) (x : ℕ) (hx : x < 4096) :
    (iblk0 V c 0 t : Vec Ideal S512x4096 .f32) (ix2 b ⟨x, hx⟩) = sN (V c main_arg0) b x := by
  obtain ⟨-, e0, e1, -⟩ := pt_facts t
  unfold iblk0 sN
  rw [View.read_apply, dif_pos hx]
  show (V c main_arg0 : S512x4096.Idx → EReal) _ = (V c main_arg0 : S512x4096.Idx → EReal) _
  congr 1
  funext a; apply Fin.ext
  match a with
  | ⟨0, _⟩ => show win0_0.index t (0 : Fin 2) * 512 + 1 * b.val = b.val; omega
  | ⟨1, _⟩ => show win0_0.index t (1 : Fin 2) * 4096 + 1 * x = x; omega

/-- The weights' block at point `t` is tile `(t / 4, t % 4)`. -/
theorem weights_at (c : Dev nD) (t : Fin cfg0.N) (o : Fin 512) (q : Fin 1024) :
    (iblk0 V c 1 t : Vec Ideal S512x1024 .f32) (ix2 o q)
      = wN (V c main_arg1) (512 * (t.val / 4) + o.val) (1024 * (t.val % 4) + q.val) := by
  obtain ⟨-, -, -, e0, e1, -⟩ := pt_facts t
  have hN : cfg0.N = 32 := N_0
  have ht := t.isLt
  have hb : 512 * (t.val / 4) + o.val < 4096 ∧ 1024 * (t.val % 4) + q.val < 4096 := by omega
  unfold iblk0 wN
  rw [View.read_apply, dif_pos hb]
  show (V c main_arg1 : S4096x4096.Idx → EReal) _ = (V c main_arg1 : S4096x4096.Idx → EReal) _
  congr 1
  funext a; apply Fin.ext
  match a with
  | ⟨0, _⟩ => show win0_1.index t (0 : Fin 2) * 512 + 1 * o.val = 512 * (t.val / 4) + o.val; omega
  | ⟨1, _⟩ => show win0_1.index t (1 : Fin 2) * 1024 + 1 * q.val = 1024 * (t.val % 4) + q.val; omega

/-- The accumulator after point `t`. -/
abbrev accAt (c : Dev nD) (t : Fin cfg0.N) : Vec Ideal S512x512 .f32 := (outsAt0 V c t.val t.isLt).2.2.2.2

/-- The product the body adds at point `t`, at an index: slab `t % 4`'s share of the weighted input of
    neuron `512·(t / 4) + o`. -/
theorem slab_share (c : Dev nD) (t : Fin cfg0.N) (xs : Vec Ideal S512x512 .f32) (b o : Fin 512) :
    k0_pay2 (F := Ideal) (slab (grid0.coords t) (iblk0 V c 0 t)) (iblk0 V c 1 t) xs (ix2 b o)
      = xs (ix2 b o) + slabSum (term (V c main_arg0) (V c main_arg1) b (512 * (t.val / 4) + o.val)) (t.val % 4) := by
  obtain ⟨ek, -⟩ := pt_facts t
  rw [Pay.pay2_apply]
  refine congrArg (xs (ix2 b o) + ·) (Finset.sum_congr rfl fun q _ => ?_)
  rw [slab_apply, weights_at]
  unfold term
  refine congrArg (· * _) ?_
  have hx : 1024 * (grid0.coords t (1 : Fin 2)).val + q.val = 1024 * (t.val % 4) + q.val := by rw [ek]
  refine (spikes_at V c t b _ _).trans ?_
  rw [hx]

/-- Where a tile starts (`t % 4 = 0`) the body clears the accumulator and adds the first slab's product. -/
theorem acc_first (c : Dev nD) (t : Fin cfg0.N) (h0 : t.val % 4 = 0) :
    accAt V c t = k0_pay2 (slab (grid0.coords t) (iblk0 V c 0 t)) (iblk0 V c 1 t) (k0_pay1 (F := Ideal)) := by
  have h1 : ¬t.val % 4 = 3 := by omega
  unfold accAt
  rw [outsAt0_A V c t h0 h1]
  dsimp only
  rw [sout0_A_0_eq]

/-- Elsewhere it adds the slab's product to what the point before left. -/
theorem acc_next (c : Dev nD) (t : Fin cfg0.N) (h0 : ¬t.val % 4 = 0) :
    accAt V c t = k0_pay2 (slab (grid0.coords t) (iblk0 V c 0 t)) (iblk0 V c 1 t)
      (outsAt0 V c (t.val - 1) (Nat.lt_of_le_of_lt (Nat.sub_le _ _) t.isLt)).2.2.2.2 := by
  unfold accAt
  by_cases h1 : t.val % 4 = 3
  · rw [outsAt0_C V c t h0 h1]
    dsimp only
    rw [sout0_C_0_eq]
  · rw [outsAt0_B V c t h0 h1]
    dsimp only
    rw [sout0_B_0_eq]

/-- The accumulator after position `n = 4·j + k`, at `(b, o)`: the weighted input of neuron `512·j + o` in batch
    row `b`, accumulated from zero through slab `k`. By induction on the position. -/
theorem acc_eq (c : Dev nD) : ∀ (n : ℕ) (hn : n < cfg0.N) (b o : Fin 512),
    (outsAt0 V c n hn).2.2.2.2 (ix2 b o)
      = psum (term (V c main_arg0) (V c main_arg1) b (512 * (n / 4) + o.val)) (n % 4) := by
  intro n
  induction n with
  | zero =>
    intro hn b o
    have h := acc_first V c ⟨0, hn⟩ (Nat.zero_mod _)
    unfold accAt at h
    rw [h, slab_share, Pay.pay1_apply]
    rfl
  | succ n ih =>
    intro hn b o
    by_cases h0 : (n + 1) % 4 = 0
    · have h := acc_first V c ⟨n + 1, hn⟩ h0
      unfold accAt at h
      rw [h, slab_share, Pay.pay1_apply]
      show _ = psum _ ((n + 1) % 4)
      rw [h0]
      rfl
    · have h := acc_next V c ⟨n + 1, hn⟩ h0
      unfold accAt at h
      rw [h, slab_share]
      show (outsAt0 V c n _).2.2.2.2 (ix2 b o) + _ = _
      rw [ih (Nat.lt_of_succ_lt hn) b o]
      obtain ⟨k, hk⟩ : ∃ k, (n + 1) % 4 = k + 1 := ⟨(n + 1) % 4 - 1, by omega⟩
      have hd : n / 4 = (n + 1) / 4 := by omega
      have hm : n % 4 = k := by omega
      show _ + slabSum _ ((n + 1) % 4) = psum _ ((n + 1) % 4)
      rw [hk, hd, hm]
      rfl

/-- Where a tile is finished (`t % 4 = 3`) the accumulator holds the specification's weighted input of the tile's
    neurons. -/
theorem acc_last (c : Dev nD) (t : Fin cfg0.N) (h3 : t.val % 4 = 3) (b o : Fin 512) (ho : 512 * (t.val / 4) + o.val < 4096) :
    accAt V c t (ix2 b o) = Cert.Spec.drive (V c main_arg0) (V c main_arg1) b ⟨512 * (t.val / 4) + o.val, ho⟩ := by
  unfold accAt
  rw [acc_eq V c t.val t.isLt b o, h3, drive_eq_psum]

/-! ## The three tile outputs -/

/-- Where a tile is finished the body stores the threshold bit, the reset potential and the postsynaptic trace
    computed from the membrane block, the trace block and the accumulator it has just completed. -/
theorem outs_last (c : Dev nD) (t : Fin cfg0.N) (h3 : t.val % 4 = 3) :
    (outsAt0 V c t.val t.isLt).1 = k0_pay5 (iblk0 V c 2 t) (accAt V c t)
    ∧ (outsAt0 V c t.val t.isLt).2.1 = k0_pay6 (iblk0 V c 2 t) (accAt V c t)
    ∧ (outsAt0 V c t.val t.isLt).2.2.1 = k0_pay7 (iblk0 V c 2 t) (accAt V c t) (iblk0 V c 3 t) := by
  have h0 : ¬t.val % 4 = 0 := by omega
  unfold accAt
  rw [outsAt0_C V c t h0 h3]
  dsimp only
  rw [out0_C_4_eq, out0_C_5_eq, out0_C_6_eq, sout0_C_0_eq]
  exact ⟨rfl, rfl, rfl⟩

/-- The membrane potentials' block at point `t` is column block `t / 4`. -/
theorem membrane_at (c : Dev nD) (t : Fin cfg0.N) (b o : Fin 512) (ho : 512 * (t.val / 4) + o.val < 4096) :
    (iblk0 V c 2 t : Vec Ideal S512x512 .f32) (ix2 b o)
      = (V c main_arg2 : S512x4096.Idx → EReal) (ix2 b ⟨512 * (t.val / 4) + o.val, ho⟩) := by
  obtain ⟨-, -, -, -, -, e0, e1, -⟩ := pt_facts t
  unfold iblk0
  rw [View.read_apply]
  show (V c main_arg2 : S512x4096.Idx → EReal) _ = (V c main_arg2 : S512x4096.Idx → EReal) _
  congr 1
  funext a; apply Fin.ext
  match a with
  | ⟨0, _⟩ => show win0_2.index t (0 : Fin 2) * 512 + 1 * b.val = b.val; omega
  | ⟨1, _⟩ => show win0_2.index t (1 : Fin 2) * 512 + 1 * o.val = 512 * (t.val / 4) + o.val; omega

/-- The postsynaptic traces' block at point `t` is column block `t / 4`. -/
theorem trace_at (c : Dev nD) (t : Fin cfg0.N) (b o : Fin 512) (ho : 512 * (t.val / 4) + o.val < 4096) :
    (iblk0 V c 3 t : Vec Ideal S512x512 .f32) (ix2 b o)
      = (V c main_arg4 : S512x4096.Idx → EReal) (ix2 b ⟨512 * (t.val / 4) + o.val, ho⟩) := by
  obtain ⟨-, -, -, -, -, -, -, e0, e1⟩ := pt_facts t
  unfold iblk0
  rw [View.read_apply]
  show (V c main_arg4 : S512x4096.Idx → EReal) _ = (V c main_arg4 : S512x4096.Idx → EReal) _
  congr 1
  funext a; apply Fin.ext
  match a with
  | ⟨0, _⟩ => show win0_3.index t (0 : Fin 2) * 512 + 1 * b.val = b.val; omega
  | ⟨1, _⟩ => show win0_3.index t (1 : Fin 2) * 512 + 1 * o.val = 512 * (t.val / 4) + o.val; omega

/-- Where a tile is finished, the leaky integration of the membrane block and the accumulator is the
    specification's potential of the tile's neurons. -/
theorem pot_last (c : Dev nD) (t : Fin cfg0.N) (h3 : t.val % 4 = 3) (b o : Fin 512) (ho : 512 * (t.val / 4) + o.val < 4096) :
    k0_pay4 (F := Ideal) (iblk0 V c 2 t) (accAt V c t) (ix2 b o)
      = Cert.Spec.pot (V c main_arg0) (V c main_arg1) (V c main_arg2) b ⟨512 * (t.val / 4) + o.val, ho⟩ := by
  rw [Pay.pay4_apply, membrane_at V c t b o ho, acc_last V c t h3 b o ho]
  rfl

/-- The three outputs' blocks all sit at `(0, t / 4)`. -/
theorem out_idx_facts : ∀ t : Fin cfg0.N,
    win0_4.index t (0 : Fin 2) = 0 ∧ win0_4.index t (1 : Fin 2) = t.val / 4
    ∧ win0_5.index t (0 : Fin 2) = 0 ∧ win0_5.index t (1 : Fin 2) = t.val / 4
    ∧ win0_6.index t (0 : Fin 2) = 0 ∧ win0_6.index t (1 : Fin 2) = t.val / 4 :=
  (by decide +kernel : ∀ t : Fin grid0.N, _)

/-- A column below 512 of column block `t / 4` is a column of the array. -/
theorem col_lt (t : Fin cfg0.N) (o : Fin 512) : 512 * (t.val / 4) + o.val < 4096 := by
  have hN : cfg0.N = 32 := N_0
  have ht := t.isLt
  omega

/-- What a finishing point writes back of the spikes is column block `t / 4` of the specification's. -/
theorem fired_flushed_eq (c : Dev nD) (t : Fin cfg0.N) (hf : (cfg0.win 4).flush t = true) :
    (dat0 (F := Ideal) V c).flushed 4 t
      = ((cfg0.win 4).blk t).view.read (Elt Ideal) (Cert.Spec.fired (V c main_arg0) (V c main_arg1) (V c main_arg2)) := by
  have h3 : t.val % 4 = 3 := (flush0_4 t).mp hf
  obtain ⟨e0, e1, -⟩ := out_idx_facts t
  show (cfg0.win 4).cut (grid0.coords t) ((dat0 V c).after 4 t) = _
  rw [after0_4, (outs_last V c t h3).1]
  funext j
  obtain ⟨b, o, rfl⟩ : ∃ (b o : Fin 512), j = ix2 b o := ⟨j 0, j 1, eq_ix2 j⟩
  refine (Pay.pay5_apply _ _ b o).trans ?_
  rw [pot_last V c t h3 b o (col_lt t o)]
  show Cert.Spec.fired (V c main_arg0) (V c main_arg1) (V c main_arg2) (ix2 b ⟨512 * (t.val / 4) + o.val, col_lt t o⟩)
    = Cert.Spec.fired (V c main_arg0) (V c main_arg1) (V c main_arg2) (((cfg0.win 4).blk t).view.emb (ix2 b o))
  congr 1
  funext a; apply Fin.ext
  match a with
  | ⟨0, _⟩ => show b.val = win0_4.index t (0 : Fin 2) * 512 + 1 * b.val; omega
  | ⟨1, _⟩ => show 512 * (t.val / 4) + o.val = win0_4.index t (1 : Fin 2) * 512 + 1 * o.val; omega

/-- An index is in point `t`'s block of the spikes iff each coordinate is in the block's range on its axis. -/
theorem fired_mem_blk (t : Fin cfg0.N) (i : S512x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0_0).slice (win0_4.rect t)).set ↔ _
  rw [View.set_slice_whole, Rect.mem_set_unit]
  exact Iff.rfl

/-- Every index is in the block of a finishing point: column `o` is in the block of point `4·(o / 512) + 3`. -/
theorem fired_cover (i : S512x4096.Idx) :
    ∃ t : Fin cfg0.N, (cfg0.win 4).flush t = true ∧ i ∈ ((cfg0.win 4).blk t).view.set := by
  have hi0 : (i 0).val < 512 := (i 0).isLt
  have hi1 : (i 1).val < 4096 := (i 1).isLt
  have hN : cfg0.N = 32 := N_0
  let t : Fin cfg0.N := ⟨4 * ((i 1).val / 512) + 3, by rw [hN]; omega⟩
  obtain ⟨e0, e1, -⟩ := out_idx_facts t
  have e1' : win0_4.index t (1 : Fin 2) = (4 * ((i 1).val / 512) + 3) / 4 := e1
  have hm : t.val % 4 = 3 := by show (4 * ((i 1).val / 512) + 3) % 4 = 3; omega
  refine ⟨t, (flush0_4 t).mpr hm, ?_⟩
  rw [fired_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The first output after the last point: the specification's spikes. -/
theorem fired_final (c : Dev nD) :
    (dat0 (F := Ideal) V c).arrAt 4 cfg0.N = Cert.Spec.fired (V c main_arg0) (V c main_arg1) (V c main_arg2) :=
  (dat0 (F := Ideal) V c).arrAt_eq_of_cover 4 (Cert.Spec.fired (V c main_arg0) (V c main_arg1) (V c main_arg2))
    (fun t hf => fired_flushed_eq V c t hf) fired_cover

/-- What a finishing point writes back of the next potentials is column block `t / 4` of the specification's. -/
theorem next_flushed_eq (c : Dev nD) (t : Fin cfg0.N) (hf : (cfg0.win 5).flush t = true) :
    (dat0 (F := Ideal) V c).flushed 5 t
      = ((cfg0.win 5).blk t).view.read (Elt Ideal) (Cert.Spec.next (V c main_arg0) (V c main_arg1) (V c main_arg2)) := by
  have h3 : t.val % 4 = 3 := (flush0_5 t).mp hf
  obtain ⟨-, -, e0, e1, -⟩ := out_idx_facts t
  show (cfg0.win 5).cut (grid0.coords t) ((dat0 V c).after 5 t) = _
  rw [after0_5, (outs_last V c t h3).2.1]
  funext j
  obtain ⟨b, o, rfl⟩ : ∃ (b o : Fin 512), j = ix2 b o := ⟨j 0, j 1, eq_ix2 j⟩
  refine (Pay.pay6_apply _ _ b o).trans ?_
  rw [pot_last V c t h3 b o (col_lt t o)]
  show Cert.Spec.next (V c main_arg0) (V c main_arg1) (V c main_arg2) (ix2 b ⟨512 * (t.val / 4) + o.val, col_lt t o⟩)
    = Cert.Spec.next (V c main_arg0) (V c main_arg1) (V c main_arg2) (((cfg0.win 5).blk t).view.emb (ix2 b o))
  congr 1
  funext a; apply Fin.ext
  match a with
  | ⟨0, _⟩ => show b.val = win0_5.index t (0 : Fin 2) * 512 + 1 * b.val; omega
  | ⟨1, _⟩ => show 512 * (t.val / 4) + o.val = win0_5.index t (1 : Fin 2) * 512 + 1 * o.val; omega

/-- An index is in point `t`'s block of the next potentials iff each coordinate is in the block's range on its axis. -/
theorem next_mem_blk (t : Fin cfg0.N) (i : S512x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0_1).slice (win0_5.rect t)).set ↔ _
  rw [View.set_slice_whole, Rect.mem_set_unit]
  exact Iff.rfl

/-- Every index is in the block of a finishing point: column `o` is in the block of point `4·(o / 512) + 3`. -/
theorem next_cover (i : S512x4096.Idx) :
    ∃ t : Fin cfg0.N, (cfg0.win 5).flush t = true ∧ i ∈ ((cfg0.win 5).blk t).view.set := by
  have hi0 : (i 0).val < 512 := (i 0).isLt
  have hi1 : (i 1).val < 4096 := (i 1).isLt
  have hN : cfg0.N = 32 := N_0
  let t : Fin cfg0.N := ⟨4 * ((i 1).val / 512) + 3, by rw [hN]; omega⟩
  obtain ⟨-, -, e0, e1, -⟩ := out_idx_facts t
  have e1' : win0_5.index t (1 : Fin 2) = (4 * ((i 1).val / 512) + 3) / 4 := e1
  have hm : t.val % 4 = 3 := by show (4 * ((i 1).val / 512) + 3) % 4 = 3; omega
  refine ⟨t, (flush0_5 t).mpr hm, ?_⟩
  rw [next_mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The second output after the last point: the specification's next potentials. -/
theorem next_final (c : Dev nD) :
    (dat0 (F := Ideal) V c).arrAt 5 cfg0.N = Cert.Spec.next (V c main_arg0) (V c main_arg1) (V c main_arg2) :=
  (dat0 (F := Ideal) V c).arrAt_eq_of_cover 5 (Cert.Spec.next (V c main_arg0) (V c main_arg1) (V c main_arg2))
    (fun t hf => next_flushed_eq V c t hf) next_cover

/-- What a finishing point writes back of the postsynaptic traces is column block `t / 4` of the specification's. -/
theorem post_flushed_eq (c : Dev nD) (t : Fin cfg0.N) (hf : (cfg0.win 6).flush t = true) :
    (dat0 (F := Ideal) V c).flushed 6 t
      = ((cfg0.win 6).blk t).view.read (Elt Ideal) (Cert.Spec.post (V c main_arg0) (V c main_arg1) (V c main_arg2) (V c main_arg4)) := by
  have h3 : t.val % 4 = 3 := (flush0_6 t).mp hf
  obtain ⟨-, -, -, -, e0, e1⟩ := out_idx_facts t
  show (cfg0.win 6).cut (grid0.coords t) ((dat0 V c).after 6 t) = _
  rw [after0_6, (outs_last V c t h3).2.2]
  funext j
  obtain ⟨b, o, rfl⟩ : ∃ (b o : Fin 512), j = ix2 b o := ⟨j 0, j 1, eq_ix2 j⟩
  refine (Pay.pay7_apply _ _ _ b o).trans ?_
  rw [trace_at V c t b o (col_lt t o), pot_last V c t h3 b o (col_lt t o)]
  show Cert.Spec.post (V c main_arg0) (V c main_arg1) (V c main_arg2) (V c main_arg4) (ix2 b ⟨512 * (t.val / 4) + o.val, col_lt t o⟩)
    = Cert.Spec.post (V c main_arg0) (V c main_arg1) (V c main_arg2) (V c main_arg4) (((cfg0.win 6).blk t).view.emb (ix2 b o))
  congr 1
  funext a; apply Fin.ext
  match a with
  | ⟨0, _⟩ => show b.val = win0_6.index t (0 : Fin 2) * 512 + 1 * b.val; omega
  | ⟨1, _⟩ => show 512 * (t.val / 4) + o.val = win0_6.index t (1 : Fin 2) * 512 + 1 * o.val; omega

/-- An index is in point `t`'s block of the postsynaptic traces iff each coordinate is in the block's range on its axis. -/
theorem post_mem_blk (t : Fin cfg0.N) (i : S512x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0_2).slice (win0_6.rect t)).set ↔ _
  rw [View.set_slice_whole, Rect.mem_set_unit]
  exact Iff.rfl

/-- Every index is in the block of a finishing point: column `o` is in the block of point `4·(o / 512) + 3`. -/
theorem post_cover (i : S512x4096.Idx) :
    ∃ t : Fin cfg0.N, (cfg0.win 6).flush t = true ∧ i ∈ ((cfg0.win 6).blk t).view.set := by
  have hi0 : (i 0).val < 512 := (i 0).isLt
  have hi1 : (i 1).val < 4096 := (i 1).isLt
  have hN : cfg0.N = 32 := N_0
  let t : Fin cfg0.N := ⟨4 * ((i 1).val / 512) + 3, by rw [hN]; omega⟩
  obtain ⟨-, -, -, -, e0, e1⟩ := out_idx_facts t
  have e1' : win0_6.index t (1 : Fin 2) = (4 * ((i 1).val / 512) + 3) / 4 := e1
  have hm : t.val % 4 = 3 := by show (4 * ((i 1).val / 512) + 3) % 4 = 3; omega
  refine ⟨t, (flush0_6 t).mpr hm, ?_⟩
  rw [post_mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The third output after the last point: the specification's postsynaptic traces. -/
theorem post_final (c : Dev nD) :
    (dat0 (F := Ideal) V c).arrAt 6 cfg0.N = Cert.Spec.post (V c main_arg0) (V c main_arg1) (V c main_arg2) (V c main_arg4) :=
  (dat0 (F := Ideal) V c).arrAt_eq_of_cover 6 (Cert.Spec.post (V c main_arg0) (V c main_arg1) (V c main_arg2) (V c main_arg4))
    (fun t hf => post_flushed_eq V c t hf) post_cover

end Cert.KernelIdeal.Hand

end
-- ==== Proof.RefSpec.lean ====
/-
  The reference program computes the specification.

  Each result of the reference is read at an index through the stage-by-stage reading lemmas and
  identified with the corresponding function of `Cert.Spec`:

    * the first contraction reads the spikes along row `b` and the transposed weights at `(k, o)`,
      that is the weights at `(o, k)`: the summand is `s[b,k] · w[o,k]`, the summand of `drive`;
    * the potential is `v[b,o] · β + drive`, the threshold bit read as a number is `fire`, and the
      selected value is `reset`;
    * the weight update is `0 · (postᵀ pre)`, and on the extended reals `0 · x = 0` for every `x`
      (infinite ones included), so the new weights are the old ones clamped.
-/
import proofs.«127198_j59219009077774_2_alg».proof.Proof.RefReadP
import proofs.«127198_j59219009077774_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- The presynaptic trace: `p · δ + s`, entry by entry. -/
theorem pre_eq (x0 x3 : Cert.Spec.Act) :
    ReadP.val_main_v15 (F := Ideal) x0 x3 = Cert.Spec.pre x0 x3 := by
  funext i
  rw [ReadP.val_main_v15_apply, ReadP.val_main_v14_apply, ReadP.val_main_v13_apply, ReadP.val_main_cst_3_apply]
  simp only [Ideal.ofBits_def, Ideal.addf_def, Ideal.mulf_def]
  rfl

/-- The left operand of the first contraction is read along row `b`. -/
theorem lidx_v1 (b : Fin 512) (o k : Fin 4096) : ReadP.lidx_main_v1 (ix2 b o) k = ix2 b k :=
  funext fun a => Fin.ext (by match a with | ⟨0, _⟩ => rfl | ⟨1, _⟩ => rfl)

/-- The transposed weights are read at row `o`, column `k` of the weights. -/
theorem ridx_v1 (b : Fin 512) (o k : Fin 4096) : ReadP.idx_main_v0 (ReadP.ridx_main_v1 (ix2 b o) k) = ix2 o k :=
  funext fun a => Fin.ext (by match a with | ⟨0, _⟩ => rfl | ⟨1, _⟩ => rfl)

/-- The potential the reference computes at an index. -/
theorem pot_eq (x0 : Cert.Spec.Act) (x1 : Cert.Spec.Wts) (x2 : Cert.Spec.Act) (b : Fin 512) (o : Fin 4096) :
    ReadP.val_main_v4 (F := Ideal) x0 x1 x2 (ix2 b o) = Cert.Spec.pot x0 x1 x2 b o := by
  rw [ReadP.val_main_v4_apply, ReadP.val_main_v3_apply, ReadP.val_main_v2_apply, ReadP.val_main_cst_apply,
    ReadP.val_main_v1_apply]
  simp only [Ideal.ofBits_def, Ideal.addf_def, Ideal.mulf_def, ReadP.val_main_v0_apply, lidx_v1, ridx_v1]
  rfl

/-- The threshold bit of the potential, read as a number. -/
theorem fired_eq (x0 : Cert.Spec.Act) (x1 : Cert.Spec.Wts) (x2 : Cert.Spec.Act) :
    ReadP.val_main_v7 (F := Ideal) x0 x1 x2 = Cert.Spec.fired x0 x1 x2 := by
  funext i
  obtain ⟨b, o, rfl⟩ : ∃ (b : Fin 512) (o : Fin 4096), i = ix2 b o := ⟨i 0, i 1, eq_ix2 i⟩
  rw [ReadP.val_main_v7_apply, ReadP.val_main_v6_apply, ReadP.val_main_v5_apply, ReadP.val_main_cst_0_apply, pot_eq]
  rfl

/-- The potential, lowered by the reset where the neuron fired. -/
theorem next_eq (x0 : Cert.Spec.Act) (x1 : Cert.Spec.Wts) (x2 : Cert.Spec.Act) :
    ReadP.val_main_v12 (F := Ideal) x0 x1 x2 = Cert.Spec.next x0 x1 x2 := by
  funext i
  obtain ⟨b, o, rfl⟩ : ∃ (b : Fin 512) (o : Fin 4096), i = ix2 b o := ⟨i 0, i 1, eq_ix2 i⟩
  rw [ReadP.val_main_v12_apply, ReadP.val_main_v9_apply, ReadP.val_main_v11_apply, ReadP.val_main_v10_apply,
    ReadP.val_main_cst_2_apply, ReadP.val_main_v8_apply, ReadP.val_main_cst_1_apply, fired_eq, pot_eq]
  rfl

/-- The postsynaptic trace: `q · δ + fired`, entry by entry. -/
theorem post_eq (x0 : Cert.Spec.Act) (x1 : Cert.Spec.Wts) (x2 x4 : Cert.Spec.Act) :
    ReadP.val_main_v18 (F := Ideal) x0 x1 x2 x4 = Cert.Spec.post x0 x1 x2 x4 := by
  funext i
  rw [ReadP.val_main_v18_apply, ReadP.val_main_v17_apply, ReadP.val_main_v16_apply, ReadP.val_main_cst_4_apply,
    fired_eq]
  rfl

/-- The weight change is `0 · x`, which is `0` for every extended real `x`, so the new weights are the old ones
    clamped to `[lo, hi]`; nothing about the traces is used. -/
theorem clipped_eq (x0 : Cert.Spec.Act) (x1 : Cert.Spec.Wts) (x2 x3 x4 : Cert.Spec.Act) :
    ReadP.val_main_v23 (F := Ideal) x0 x1 x2 x3 x4 = Cert.Spec.clipped x1 := by
  funext i
  rw [ReadP.val_main_v23_apply, ReadP.val_main_call1_v4_apply, ReadP.val_main_call1_v3_apply,
    ReadP.val_main_cst_7_apply, ReadP.val_main_call1_v2_apply, ReadP.val_main_call1_v1_apply,
    ReadP.val_main_call1_v0_apply, ReadP.val_main_cst_6_apply, ReadP.val_main_v22_apply,
    ReadP.val_main_v21_apply, ReadP.val_main_v20_apply, ReadP.val_main_cst_5_apply]
  simp only [Ideal.ofBits_def, Ideal.addf_def, Ideal.mulf_def, Ideal.maximumf_def, Ideal.minimumf_def,
    Ideal.ofBits_zero_f32, zero_mul, add_zero]
  rfl

/-- On every device, from any memory with zero counters, every weakly fair execution of the reference terminates
    with its five results at the specification's functions of the arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Cert.Spec.fired (m ((c.tc : Thread nD τ).loc main_arg0)) (m ((c.tc : Thread nD τ).loc main_arg1)) (m ((c.tc : Thread nD τ).loc main_arg2))
      ∧ r.2.mem ((c.tc : Thread nD τ).loc main_v12) = Cert.Spec.next (m ((c.tc : Thread nD τ).loc main_arg0)) (m ((c.tc : Thread nD τ).loc main_arg1)) (m ((c.tc : Thread nD τ).loc main_arg2))
      ∧ r.2.mem ((c.tc : Thread nD τ).loc main_v23) = Cert.Spec.clipped (m ((c.tc : Thread nD τ).loc main_arg1))
      ∧ r.2.mem ((c.tc : Thread nD τ).loc main_v15) = Cert.Spec.pre (m ((c.tc : Thread nD τ).loc main_arg0)) (m ((c.tc : Thread nD τ).loc main_arg3))
      ∧ r.2.mem ((c.tc : Thread nD τ).loc main_v18) = Cert.Spec.post (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨h7, h12, h23, h15, h18, hargs⟩ := h c
      exact ⟨h7.trans ((ReadP.val_main_v7_eq _ _ _).trans (fired_eq _ _ _)),
        h12.trans ((ReadP.val_main_v12_eq _ _ _).trans (next_eq _ _ _)),
        h23.trans ((ReadP.val_main_v23_eq _ _ _ _ _).trans (clipped_eq _ _ _ _ _)),
        h15.trans ((ReadP.val_main_v15_eq _ _).trans (pre_eq _ _)),
        h18.trans ((ReadP.val_main_v18_eq _ _ _ _).trans (post_eq _ _ _ _)),
        hargs⟩)
    (ValueP.run (F := Ideal) m ρ)

end Cert.ReferenceIdeal.RefValue

end
-- ==== Proof.lean ====
/-
  One step of a spiking layer — leaky integration of the weighted input, threshold and reset, the two plasticity
  traces, and the weight update — computed by two pallas_calls, against its plain reference.

  The three programs run (terminate, fault nowhere, leave their arguments as launched): the kernel program, at the
  word level and read over the extended reals, by running its two pallas_calls as segments of one run — the first
  a tiled matrix product whose accumulator is carried across the four slabs of each tile, the second an
  elementwise update —; the reference by reading back its list of host operations.

  The two idealized programs agree: both end with
      fired   = [ v·β + s·wᵀ > 1 ],         next = that potential, reset by r where it fired,
      clipped = min(hi, max(lo, w)),         pre  = p·δ + s,        post = q·δ + fired
  as functions of the arguments, index by index. Two facts join the sides. The kernel sums the weighted input slab
  by slab (four blocks of 1024), the reference in one sum of 4096: addition on the extended reals is commutative and
  associative, so the grouping does not matter. And the reference adds to the weights the product of the rate
  difference, which is the zero word, with the outer product of the traces: 0 · x = 0 for every extended real, so it
  adds nothing, and the kernel's clamp of the old weights is the reference's clamp of the new ones. Neither fact needs
  the inputs to be finite, so the precondition is never opened.
-/
import proofs.«127198_j59219009077774_2_alg».proof.Defs
import proofs.«127198_j59219009077774_2_alg».proof.Proof.Gen.Kernel
import proofs.«127198_j59219009077774_2_alg».proof.Proof.Gen.KernelIdeal
import proofs.«127198_j59219009077774_2_alg».proof.Proof.Gen.ReferenceIdeal
import proofs.«127198_j59219009077774_2_alg».proof.Proof.Gen.Pre_finite_inputs
import proofs.«127198_j59219009077774_2_alg».proof.Proof.KRun
import proofs.«127198_j59219009077774_2_alg».proof.Proof.KiRun
import proofs.«127198_j59219009077774_2_alg».proof.Proof.KiReg1Value
import proofs.«127198_j59219009077774_2_alg».proof.Proof.KiR0Value
import proofs.«127198_j59219009077774_2_alg».proof.Proof.RefSpec
import Idealize.ShloMosaic.Adequacy
import Idealize.ShloMosaic.Init

noncomputable section

namespace Cert.Proof

open Idealize.ShloMosaic Idealize.ShloMosaic.TcCoe Idealize.SL.Sem

/-- The kernel program at the word level runs and keeps its arguments. -/
theorem frame_word : Cert.frame_Kernel := fun m ρ _ => Cert.Kernel.Hand.frame m ρ

/-- The same program over the extended reals. -/
theorem frame_ideal : Cert.frame_KernelIdeal := fun m ρ _ => Cert.KernelIdeal.Hand.frame m ρ

/-- The reference runs and keeps its arguments: its run with the results dropped. -/
theorem frame_ref : Cert.frame_ReferenceIdeal := fun m ρ _ =>
  (θ_run Cert.ReferenceIdeal.defs _ _).mono (fun _ h c => (h c).2.2.2.2.2) (Cert.ReferenceIdeal.RefValue.run_spec m ρ)

/-- The idealization rewrote no operation. -/
theorem preserves : Cert.preserves_Kernel_KernelIdeal := trivial

/-- Both idealized programs end at the specification's five functions of the arguments. -/
theorem algebraic : Cert.algebraic_KernelIdeal_ReferenceIdeal := by
  intro m ρ m' ρ' _ hagree
  refine ⟨fun c => Cert.Spec.fired (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.next (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.clipped (m ((c.tc : Thread Cert.KernelIdeal.nD Cert.KernelIdeal.τ).loc Cert.KernelIdeal.main_arg1)),
    fun c => Cert.Spec.pre (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.Spec.post (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · -- the kernel program: each result is the final array of the window that writes it, and that array is the specification's
    refine (θ_run Cert.KernelIdeal.defs _ _).mono (fun _ h c => ?_) (Cert.KernelIdeal.Hand.results (F := Ideal) m ρ)
    obtain ⟨h0, h1, h2, h3, h4, ha⟩ := h c
    refine ⟨h0.trans (Cert.KernelIdeal.Hand.fired_final _ c), h1.trans (Cert.KernelIdeal.Hand.next_final _ c),
      h2.trans (Cert.KernelIdeal.Hand.clipped_final _ c), h3.trans ((Cert.KernelIdeal.Hand.tp_final _ c).trans ?_),
      h4.trans (Cert.KernelIdeal.Hand.post_final _ c), ha⟩
    rw [Cert.KernelIdeal.Hand.V1r_main_arg0, Cert.KernelIdeal.Hand.V1r_main_arg3]
  · -- the reference: its run, read at the specification, at arguments that agree with the kernel's
    refine (θ_run Cert.ReferenceIdeal.defs _ _).mono (fun _ h c => ?_) (Cert.ReferenceIdeal.RefValue.run_spec m' ρ')
    obtain ⟨h0, h1, h2, h3, h4, ha⟩ := h c
    obtain ⟨e0, e1, e2, e3, e4⟩ := hagree c
    exact ⟨h0.trans (by rw [e0, e1, e2]), h1.trans (by rw [e0, e1, e2]), h2.trans (by rw [e1]),
      h3.trans (by rw [e0, e3]), h4.trans (by rw [e0, e1, e2, e4]), ha⟩

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
